-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128x128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 206
  | .vmem => 30
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S50000, .f32⟩
  | 34 => ⟨S128x128, .f32⟩
  | 35 => ⟨S128x128, .f32⟩
  | 36 => ⟨S128x128, .f32⟩
  | 37 => ⟨S128x128, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x1, .f32⟩
  | 68 => ⟨S800000x128, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S800000x1, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S50000, .f32⟩
  | 115 => ⟨S50000x1, .f32⟩
  | 116 => ⟨S50000x128, .f32⟩
  | 117 => ⟨S50000x128, .f32⟩
  | 118 => ⟨S50000x128, .f32⟩
  | 119 => ⟨S1x128, .f32⟩
  | 120 => ⟨S1x128, .f32⟩
  | 121 => ⟨S50000x128, .f32⟩
  | 122 => ⟨S50000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000, .f32⟩
  | 13 => ⟨S800000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x1, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000, .f32⟩
  | 31 => ⟨S50000x1, .f32⟩
  | 32 => ⟨S50000x128, .f32⟩
  | 33 => ⟨S50000x128, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x1, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S1x128, .f32⟩
  | 77 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_17 : Ref sig .tc := ⟨.hbm, 123, rfl⟩
abbrev main_v92 : Ref sig .tc := ⟨.hbm, 124, rfl⟩
abbrev main_v93 : Ref sig .tc := ⟨.hbm, 125, rfl⟩
abbrev main_c_18 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_19 : Ref sig .tc := ⟨.hbm, 132, rfl⟩
abbrev main_v99 : Ref sig .tc := ⟨.hbm, 133, rfl⟩
abbrev main_v100 : Ref sig .tc := ⟨.hbm, 134, rfl⟩
abbrev main_c_20 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_21 : Ref sig .tc := ⟨.hbm, 142, rfl⟩
abbrev main_v107 : Ref sig .tc := ⟨.hbm, 143, rfl⟩
abbrev main_v108 : Ref sig .tc := ⟨.hbm, 144, rfl⟩
abbrev main_c_22 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_23 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_c_24 : Ref sig .tc := ⟨.hbm, 163, rfl⟩
abbrev main_v125 : Ref sig .tc := ⟨.hbm, 164, rfl⟩
abbrev main_v126 : Ref sig .tc := ⟨.hbm, 165, rfl⟩
abbrev main_c_25 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_c_26 : Ref sig .tc := ⟨.hbm, 172, rfl⟩
abbrev main_v132 : Ref sig .tc := ⟨.hbm, 173, rfl⟩
abbrev main_v133 : Ref sig .tc := ⟨.hbm, 174, rfl⟩
abbrev main_c_27 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_28 : Ref sig .tc := ⟨.hbm, 182, rfl⟩
abbrev main_v140 : Ref sig .tc := ⟨.hbm, 183, rfl⟩
abbrev main_v141 : Ref sig .tc := ⟨.hbm, 184, rfl⟩
abbrev main_c_29 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_30 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x128_S128x128 : S128x128.ShapeCasts S128x128
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v87) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v88) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v90) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v90) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v91) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v124) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v157) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v158) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v159) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v160) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 288
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S128x128, .f32⟩
  | 3 => ⟨S50000x128, .f32⟩
  | 4 => ⟨S128x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S50000x128, .f32⟩
  | 24 => ⟨S50000x128, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x1, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S_, .f32⟩
  | 83 => ⟨S800000, .f32⟩
  | 84 => ⟨S_, .f32⟩
  | 85 => ⟨S50000, .f32⟩
  | 86 => ⟨S800000x1, .i32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x1, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S50000, .f32⟩
  | _ => ⟨S50000x128, .f32⟩

abbrev hbmTy0_2 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S128x128, .f32⟩
  | 11 => ⟨S50000x128, .f32⟩
  | 12 => ⟨S128x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call1_cst : Ref sig .tc := ⟨.hbm, 127, rfl⟩
abbrev main_call1_v0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_v104 : Ref sig .tc := ⟨.hbm, 141, rfl⟩
abbrev main_v105 : Ref sig .tc := ⟨.hbm, 142, rfl⟩
abbrev main_cst_19 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_20 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_21 : Ref sig .tc := ⟨.hbm, 153, rfl⟩
abbrev main_v114 : Ref sig .tc := ⟨.hbm, 154, rfl⟩
abbrev main_cst_22 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_23 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_24 : Ref sig .tc := ⟨.hbm, 163, rfl⟩
abbrev main_v121 : Ref sig .tc := ⟨.hbm, 164, rfl⟩
abbrev main_v122 : Ref sig .tc := ⟨.hbm, 165, rfl⟩
abbrev main_c_25 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_26 : Ref sig .tc := ⟨.hbm, 172, rfl⟩
abbrev main_v128 : Ref sig .tc := ⟨.hbm, 173, rfl⟩
abbrev main_v129 : Ref sig .tc := ⟨.hbm, 174, rfl⟩
abbrev main_c_27 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_c_28 : Ref sig .tc := ⟨.hbm, 182, rfl⟩
abbrev main_v136 : Ref sig .tc := ⟨.hbm, 183, rfl⟩
abbrev main_v137 : Ref sig .tc := ⟨.hbm, 184, rfl⟩
abbrev main_c_29 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_30 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_call2_cst : Ref sig .tc := ⟨.hbm, 206, rfl⟩
abbrev main_call2_v0 : Ref sig .tc := ⟨.hbm, 207, rfl⟩
abbrev main_v157 : Ref sig .tc := ⟨.hbm, 208, rfl⟩
abbrev main_v158 : Ref sig .tc := ⟨.hbm, 209, rfl⟩
abbrev main_cst_31 : Ref sig .tc := ⟨.hbm, 210, rfl⟩
abbrev main_v159 : Ref sig .tc := ⟨.hbm, 211, rfl⟩
abbrev main_cst_32 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_cst_33 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_c_34 : Ref sig .tc := ⟨.hbm, 220, rfl⟩
abbrev main_v166 : Ref sig .tc := ⟨.hbm, 221, rfl⟩
abbrev main_v167 : Ref sig .tc := ⟨.hbm, 222, rfl⟩
abbrev main_c_35 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_c_36 : Ref sig .tc := ⟨.hbm, 229, rfl⟩
abbrev main_v173 : Ref sig .tc := ⟨.hbm, 230, rfl⟩
abbrev main_v174 : Ref sig .tc := ⟨.hbm, 231, rfl⟩
abbrev main_c_37 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_c_38 : Ref sig .tc := ⟨.hbm, 239, rfl⟩
abbrev main_v181 : Ref sig .tc := ⟨.hbm, 240, rfl⟩
abbrev main_v182 : Ref sig .tc := ⟨.hbm, 241, rfl⟩
abbrev main_c_39 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_cst_40 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_call3_cst : Ref sig .tc := ⟨.hbm, 263, rfl⟩
abbrev main_call3_v0 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_cst_41 : Ref sig .tc := ⟨.hbm, 276, rfl⟩
abbrev main_v213 : Ref sig .tc := ⟨.hbm, 277, rfl⟩
abbrev main_v214 : Ref sig .tc := ⟨.hbm, 278, rfl⟩
abbrev main_cst_42 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_cst_43 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x128_S128x128_1_0 : S128x128.Transposes [1, 0] S128x128
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel program, run whole: from any launch memory every weakly fair execution terminates, faulting
  nowhere, and EVERY unscoped buffer of every core ends at the contents the program's seven segments fold out of the
  launch memory — three stretches of host operations and four tiled regions, each region leaving in its output array
  what its grid points wrote back and every other buffer as it found it.  The frame statement keeps of this only the
  twelve arguments; the value statement needs the result array too, so the same launch is read here against the
  stronger conclusion.
-/
import proofs.«129891_j60722247631313_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run: every unscoped buffer of every core ends at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result array and the twelve arguments, read off the whole run: the result at region 3's output array as its
    write-backs leave it, each argument as launched. -/
theorem run_result : θ_run defs (onTc (τ := τ) (main (F := F))) ⟨m, fun _ => 0, ρ⟩ (fun r => ∀ c : Dev nD,
      r.2.mem ((c.tc : Thread nD τ).loc main_v160) = W7 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v160 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)
    (run_all m ρ)

end Cert.KernelIdeal.Whole

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«129891_j60722247631313_1_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.Spec.lean ====
/-
  The network both programs compute, as ONE function of the twelve argument arrays, over the extended reals.

  A layer takes node features X (50000 × 128), a weight W, a bias β, two gate weights and a gate bias, and the edge
  list (2 × 800000: row 0 the sources, row 1 the targets):
    H  = X · W                                   (dense product, `mm`)
    Af = agg H src dst dinv(dst)                 (messages along the edges, plus the self loop)
    Ar = agg H dst src dinv(src)                 (the same with every edge reversed)
    o₁ = max(Af + β, 0),  o₂ = max(Ar + β, 0)
    g  = logistic(o₁ · Waᵀ + o₂ · Wbᵀ + b)
    out = g · o₁ + (1 − g) · o₂                  (`fuse`, entry by entry; row p of out reads row p of Af and Ar only)
  and the network is two layers.  The per-edge part — degrees, their inverse square roots, the gather of rows along the
  edges, the normalisation and the scatter-add back to the nodes — is the SAME chain of array operations in both programs;
  it is named here (`dinv`, `agg`) and never opened: the proof only ever needs that equal inputs give equal outputs.
-/
import proofs.«129891_j60722247631313_1_alg».proof.Proof.LibDenseProduct
import proofs.«129891_j60722247631313_1_alg».proof.Proof.Gen.KernelIdeal
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀ Cert.LibDenseProduct

/-! ## The arrays -/

abbrev Nodes := (⟨S50000x128, .f32⟩ : BufTy).Contents (Elt Ideal)
abbrev Edges := (⟨S2x800000, .i32⟩ : BufTy).Contents (Elt Ideal)
abbrev Ends := (⟨S800000, .i32⟩ : BufTy).Contents (Elt Ideal)
abbrev PerNode := (⟨S50000, .f32⟩ : BufTy).Contents (Elt Ideal)
abbrev Mat := (⟨S128x128, .f32⟩ : BufTy).Contents (Elt Ideal)
abbrev Row := (⟨S1x128, .f32⟩ : BufTy).Contents (Elt Ideal)
abbrev Lanes := (⟨S128, .f32⟩ : BufTy).Contents (Elt Ideal)

/-! ## The per-edge chain, named and never opened -/

/-- The sources of the edges: row 0 of the edge list. -/
def srcOf (e : Edges) : Ends :=
  shapeCast S800000 (extractStridedSlice S1x800000 ![0, 0] e slices_S2x800000_S1x800000_0_0) shapeCasts_S1x800000_S800000

/-- The targets of the edges: row 1 of the edge list. -/
def dstOf (e : Edges) : Ends :=
  shapeCast S800000 (extractStridedSlice S1x800000 ![1, 0] e slices_S2x800000_S1x800000_1_0) shapeCasts_S1x800000_S800000

/-- Per node: one plus the number of edge ends `t` that name it, to the power −1/2. -/
def dinv (t : Ends) : PerNode :=
  Host.rsqrt (F := Ideal) (addf
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 t)
      (broadcastInDim S800000 ![] bcast_S_S800000 (constant (F := Ideal) S_ .f32 0x3F800000#32)))
    (broadcastInDim S50000 ![] bcast_S_S50000 (constant (F := Ideal) S_ .f32 0x3F800000#32)))

/-- A node number below zero counts from the end. -/
def wrap (t : Ends) : Ends :=
  select (cmpi .slt t (broadcastInDim S800000 ![] bcast_S_S800000 (constantI S_ 32 0#32)))
    (addi t (broadcastInDim S800000 ![] bcast_S_S800000 (constantI S_ 32 50000#32))) t

/-- Aggregation along the edges from ends `a` to ends `b` with per-node factors `d`: every edge carries row a(e) of `h`
    scaled by d(a(e)) · d(b(e)) to node b(e), where the carried rows are added up; each node also keeps d² times its own row. -/
def agg (h : Nodes) (a b : Ends) (d : PerNode) : Nodes :=
  addf
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 b)
      (mulf
        (Host.gather gather_S50000x128_S800000x1_S800000x128_1_0_n_n_0_1_1128 h
          (broadcastInDim S800000x1 ![0] bcast_S800000_S800000x1_0 (wrap a)))
        (broadcastInDim S800000x128 ![0, 1] bcast_S800000x1_S800000x128_0_1
          (broadcastInDim S800000x1 ![0] bcast_S800000_S800000x1_0
            (mulf
              (Host.gather gather_S50000_S800000x1_S800000_n_0_n_n_0_1_1 d
                (broadcastInDim S800000x1 ![0] bcast_S800000_S800000x1_0 (wrap a)))
              (Host.gather gather_S50000_S800000x1_S800000_n_0_n_n_0_1_1 d
                (broadcastInDim S800000x1 ![0] bcast_S800000_S800000x1_0 (wrap b))))))))
    (mulf h
      (broadcastInDim S50000x128 ![0, 1] bcast_S50000x1_S50000x128_0_1
        (broadcastInDim S50000x1 ![0] bcast_S50000_S50000x1_0 (mulf d d))))

/-- A gate weight is used transposed. -/
def tr (w : Mat) : Mat := transpose S128x128 [1, 0] w transposes_S128x128_S128x128_1_0

/-- A bias as a one-row array. -/
def row (v : Lanes) : Row := shapeCast S1x128 v shapeCasts_S128_S1x128

/-! ## The gated fusion, entry by entry -/

/-- The float words of 0 and 1, kept as words: the same word stands on both sides of every equation. -/
abbrev zeroW : EReal := Ideal.ofBits .f32 0x00000000#32
abbrev oneW : EReal := Ideal.ofBits .f32 0x3F800000#32

/-- Entry (p, q) of the fusion of two n × 128 arrays: with o₁ = max(A + β, 0) and o₂ = max(B + β, 0) along row p,
    g = logistic(∑ c, o₁(c) · Wa(c, q) + ∑ c, o₂(c) · Wb(c, q) + b(q)), the entry is g · o₁(q) + (1 − g) · o₂(q). -/
def fuseAt {n : Nat} (A B : FVec Ideal ⟨2, ![n, 128]⟩ .f32) (β : FVec Ideal ⟨2, ![1, 128]⟩ .f32)
    (Wa Wb : FVec Ideal ⟨2, ![128, 128]⟩ .f32) (b : FVec Ideal ⟨2, ![1, 128]⟩ .f32) (p : Fin n) (q : Fin 128) : EReal :=
  Ideal.logistic ((∑ c : Fin 128, max (A (ix2 p c) + β (ix2 0 c)) zeroW * Wa (ix2 c q))
      + (∑ c : Fin 128, max (B (ix2 p c) + β (ix2 0 c)) zeroW * Wb (ix2 c q)) + b (ix2 0 q))
    * max (A (ix2 p q) + β (ix2 0 q)) zeroW
  + (oneW - Ideal.logistic ((∑ c : Fin 128, max (A (ix2 p c) + β (ix2 0 c)) zeroW * Wa (ix2 c q))
      + (∑ c : Fin 128, max (B (ix2 p c) + β (ix2 0 c)) zeroW * Wb (ix2 c q)) + b (ix2 0 q)))
    * max (B (ix2 p q) + β (ix2 0 q)) zeroW

/-- The fusion as an array. -/
def fuse {n : Nat} (A B : FVec Ideal ⟨2, ![n, 128]⟩ .f32) (β : FVec Ideal ⟨2, ![1, 128]⟩ .f32)
    (Wa Wb : FVec Ideal ⟨2, ![128, 128]⟩ .f32) (b : FVec Ideal ⟨2, ![1, 128]⟩ .f32) : FVec Ideal ⟨2, ![n, 128]⟩ .f32 :=
  fun i => fuseAt A B β Wa Wb b (i 0) (i 1)

theorem fuse_apply {n : Nat} (A B : FVec Ideal ⟨2, ![n, 128]⟩ .f32) (β : FVec Ideal ⟨2, ![1, 128]⟩ .f32)
    (Wa Wb : FVec Ideal ⟨2, ![128, 128]⟩ .f32) (b : FVec Ideal ⟨2, ![1, 128]⟩ .f32) (p : Fin n) (q : Fin 128) :
    fuse A B β Wa Wb b (ix2 p q) = fuseAt A B β Wa Wb b p q := rfl

/-- Row p of the fusion reads row p of the two arrays only: a block of rows of the fusion is the fusion of the blocks. -/
theorem fuseAt_rows {n N : Nat} (x0 x1 : FVec Ideal ⟨2, ![n, 128]⟩ .f32) (A B : FVec Ideal ⟨2, ![N, 128]⟩ .f32)
    (β : FVec Ideal ⟨2, ![1, 128]⟩ .f32) (Wa Wb : FVec Ideal ⟨2, ![128, 128]⟩ .f32) (b : FVec Ideal ⟨2, ![1, 128]⟩ .f32)
    (p : Fin n) (P : Fin N) (q : Fin 128)
    (h0 : ∀ c : Fin 128, x0 (ix2 p c) = A (ix2 P c)) (h1 : ∀ c : Fin 128, x1 (ix2 p c) = B (ix2 P c)) :
    fuseAt x0 x1 β Wa Wb b p q = fuseAt A B β Wa Wb b P q := by
  unfold fuseAt
  simp only [h0, h1]

/-! ## A layer, and the network -/

/-- One layer: product, the two aggregations, the gated fusion. -/
def layer (X : Nodes) (W : Mat) (β : Lanes) (wa wb : Mat) (b : Lanes) (e : Edges) : Nodes :=
  fuse (n := 50000) (agg (mm (m := 50000) (k := 128) (n := 128) (φ₁ := .f32) (φ₂ := .f32) X W) (srcOf e) (dstOf e) (dinv (dstOf e)))
    (agg (mm (m := 50000) (k := 128) (n := 128) (φ₁ := .f32) (φ₂ := .f32) X W) (dstOf e) (srcOf e) (dinv (srcOf e)))
    (row β) (tr wa) (tr wb) (row b)

/-- The network: two layers over the same edges. -/
def net (x : Nodes) (e : Edges) (W1 : Mat) (bc1 : Lanes) (W2 : Mat) (bc2 : Lanes) (w11 w12 : Mat) (b1 : Lanes)
    (w21 w22 : Mat) (b2 : Lanes) : Nodes :=
  layer (layer x W1 bc1 w11 w12 b1 e) W2 bc2 w21 w22 b2 e

end Cert.Gcn

end
-- ==== Proof.HostRead.lean ====
/-
  The three stretches of host operations of the kernel program, read at a buffer: what each leaves in the buffers the
  regions read, as a function of the contents `W` the stretch starts from.

  The first stretch splits the edge list into its sources and targets, counts degrees and takes their inverse square
  roots (`dinv`), and transposes the four gate weights.  The second and the third are the two aggregations of a layer
  (`agg`, along the edges and against them) and the two biases laid out as rows.  A buffer no operation of a stretch
  writes keeps its contents through it.
-/
import proofs.«129891_j60722247631313_1_alg».proof.Proof.Spec
import proofs.«129891_j60722247631313_1_alg».proof.Proof.Gen.KernelIdeal.Launch
import Idealize.ShloMosaic.Lib.StableHlo.Run

set_option maxRecDepth 16384

noncomputable section

namespace Cert.Gcn.Host

open Idealize.ShloMosaic Idealize.ShloMosaic.TcCoe Idealize.ShloMosaic.StableHlo Idealize.SL.Sem
open Cert.KernelIdeal Cert.KernelIdeal.Gen

variable (W : Valuation τ sig (Elt Ideal))

/-- A buffer none of the listed operations writes: its reference differs from every operation's result reference. -/
local macro "keeps " l:ident : tactic => `(tactic| (
  refine StableHlo.after_of_forall_not_mem (b := _) _ _ (List.forall_iff_forall_mem.mp ?_)
  simp only [$l:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The first stretch: edge ends, inverse square roots of degrees, transposed gate weights -/

theorem ops0_v1 : StableHlo.after (hostOps0 (F := Ideal)) W (Proc.devRef .tc main_v1) = srcOf (W (Proc.devRef .tc main_arg1)) := by
  after_results; rfl
theorem ops0_v3 : StableHlo.after (hostOps0 (F := Ideal)) W (Proc.devRef .tc main_v3) = dstOf (W (Proc.devRef .tc main_arg1)) := by
  after_results; rfl
theorem ops0_v15 : StableHlo.after (hostOps0 (F := Ideal)) W (Proc.devRef .tc main_v15) = dinv (dstOf (W (Proc.devRef .tc main_arg1))) := by
  after_results; rfl
theorem ops0_v16 : StableHlo.after (hostOps0 (F := Ideal)) W (Proc.devRef .tc main_v16) = dinv (srcOf (W (Proc.devRef .tc main_arg1))) := by
  after_results; rfl
theorem ops0_v17 : StableHlo.after (hostOps0 (F := Ideal)) W (Proc.devRef .tc main_v17) = tr (W (Proc.devRef .tc main_arg6)) := by
  after_results; rfl
theorem ops0_v18 : StableHlo.after (hostOps0 (F := Ideal)) W (Proc.devRef .tc main_v18) = tr (W (Proc.devRef .tc main_arg7)) := by
  after_results; rfl
theorem ops0_v19 : StableHlo.after (hostOps0 (F := Ideal)) W (Proc.devRef .tc main_v19) = tr (W (Proc.devRef .tc main_arg9)) := by
  after_results; rfl
theorem ops0_v20 : StableHlo.after (hostOps0 (F := Ideal)) W (Proc.devRef .tc main_v20) = tr (W (Proc.devRef .tc main_arg10)) := by
  after_results; rfl
theorem keep0_arg0 : StableHlo.after (hostOps0 (F := Ideal)) W (Proc.devRef .tc main_arg0) = W (Proc.devRef .tc main_arg0) := by keeps hostOps0
theorem keep0_arg2 : StableHlo.after (hostOps0 (F := Ideal)) W (Proc.devRef .tc main_arg2) = W (Proc.devRef .tc main_arg2) := by keeps hostOps0
theorem keep0_arg3 : StableHlo.after (hostOps0 (F := Ideal)) W (Proc.devRef .tc main_arg3) = W (Proc.devRef .tc main_arg3) := by keeps hostOps0
theorem keep0_arg4 : StableHlo.after (hostOps0 (F := Ideal)) W (Proc.devRef .tc main_arg4) = W (Proc.devRef .tc main_arg4) := by keeps hostOps0
theorem keep0_arg5 : StableHlo.after (hostOps0 (F := Ideal)) W (Proc.devRef .tc main_arg5) = W (Proc.devRef .tc main_arg5) := by keeps hostOps0
theorem keep0_arg8 : StableHlo.after (hostOps0 (F := Ideal)) W (Proc.devRef .tc main_arg8) = W (Proc.devRef .tc main_arg8) := by keeps hostOps0
theorem keep0_arg11 : StableHlo.after (hostOps0 (F := Ideal)) W (Proc.devRef .tc main_arg11) = W (Proc.devRef .tc main_arg11) := by keeps hostOps0

/-! ## The second stretch: layer 1's two aggregations, its biases as rows -/

theorem ops1_v54 : StableHlo.after (hostOps1 (F := Ideal)) W (Proc.devRef .tc main_v54)
    = agg (W (Proc.devRef .tc main_v21)) (W (Proc.devRef .tc main_v1)) (W (Proc.devRef .tc main_v3)) (W (Proc.devRef .tc main_v15)) := by
  after_results_simp; rfl
theorem ops1_v87 : StableHlo.after (hostOps1 (F := Ideal)) W (Proc.devRef .tc main_v87)
    = agg (W (Proc.devRef .tc main_v21)) (W (Proc.devRef .tc main_v3)) (W (Proc.devRef .tc main_v1)) (W (Proc.devRef .tc main_v16)) := by
  after_results_simp; rfl
theorem ops1_v88 : StableHlo.after (hostOps1 (F := Ideal)) W (Proc.devRef .tc main_v88) = row (W (Proc.devRef .tc main_arg3)) := by
  after_results_simp; rfl
theorem ops1_v89 : StableHlo.after (hostOps1 (F := Ideal)) W (Proc.devRef .tc main_v89) = row (W (Proc.devRef .tc main_arg8)) := by
  after_results_simp; rfl
theorem keep1_v1 : StableHlo.after (hostOps1 (F := Ideal)) W (Proc.devRef .tc main_v1) = W (Proc.devRef .tc main_v1) := by keeps hostOps1
theorem keep1_v3 : StableHlo.after (hostOps1 (F := Ideal)) W (Proc.devRef .tc main_v3) = W (Proc.devRef .tc main_v3) := by keeps hostOps1
theorem keep1_v15 : StableHlo.after (hostOps1 (F := Ideal)) W (Proc.devRef .tc main_v15) = W (Proc.devRef .tc main_v15) := by keeps hostOps1
theorem keep1_v16 : StableHlo.after (hostOps1 (F := Ideal)) W (Proc.devRef .tc main_v16) = W (Proc.devRef .tc main_v16) := by keeps hostOps1
theorem keep1_v17 : StableHlo.after (hostOps1 (F := Ideal)) W (Proc.devRef .tc main_v17) = W (Proc.devRef .tc main_v17) := by keeps hostOps1
theorem keep1_v18 : StableHlo.after (hostOps1 (F := Ideal)) W (Proc.devRef .tc main_v18) = W (Proc.devRef .tc main_v18) := by keeps hostOps1
theorem keep1_v19 : StableHlo.after (hostOps1 (F := Ideal)) W (Proc.devRef .tc main_v19) = W (Proc.devRef .tc main_v19) := by keeps hostOps1
theorem keep1_v20 : StableHlo.after (hostOps1 (F := Ideal)) W (Proc.devRef .tc main_v20) = W (Proc.devRef .tc main_v20) := by keeps hostOps1
theorem keep1_arg4 : StableHlo.after (hostOps1 (F := Ideal)) W (Proc.devRef .tc main_arg4) = W (Proc.devRef .tc main_arg4) := by keeps hostOps1
theorem keep1_arg5 : StableHlo.after (hostOps1 (F := Ideal)) W (Proc.devRef .tc main_arg5) = W (Proc.devRef .tc main_arg5) := by keeps hostOps1
theorem keep1_arg11 : StableHlo.after (hostOps1 (F := Ideal)) W (Proc.devRef .tc main_arg11) = W (Proc.devRef .tc main_arg11) := by keeps hostOps1

/-! ## The third stretch: layer 2's two aggregations, its biases as rows -/

theorem ops3_v124 : StableHlo.after (hostOps3 (F := Ideal)) W (Proc.devRef .tc main_v124)
    = agg (W (Proc.devRef .tc main_v91)) (W (Proc.devRef .tc main_v1)) (W (Proc.devRef .tc main_v3)) (W (Proc.devRef .tc main_v15)) := by
  after_results_simp; rfl
theorem ops3_v157 : StableHlo.after (hostOps3 (F := Ideal)) W (Proc.devRef .tc main_v157)
    = agg (W (Proc.devRef .tc main_v91)) (W (Proc.devRef .tc main_v3)) (W (Proc.devRef .tc main_v1)) (W (Proc.devRef .tc main_v16)) := by
  after_results_simp; rfl
theorem ops3_v158 : StableHlo.after (hostOps3 (F := Ideal)) W (Proc.devRef .tc main_v158) = row (W (Proc.devRef .tc main_arg5)) := by
  after_results_simp; rfl
theorem ops3_v159 : StableHlo.after (hostOps3 (F := Ideal)) W (Proc.devRef .tc main_v159) = row (W (Proc.devRef .tc main_arg11)) := by
  after_results_simp; rfl
theorem keep3_v19 : StableHlo.after (hostOps3 (F := Ideal)) W (Proc.devRef .tc main_v19) = W (Proc.devRef .tc main_v19) := by keeps hostOps3
theorem keep3_v20 : StableHlo.after (hostOps3 (F := Ideal)) W (Proc.devRef .tc main_v20) = W (Proc.devRef .tc main_v20) := by keeps hostOps3

end Cert.Gcn.Host

end
-- ==== Proof.Region0.lean ====
/-
  Region 0 of the kernel program: the dense product, tiled over blocks of 2000 rows.

  The region's grid has 25 points; point t loads rows 2000·t … 2000·t + 1999 of the left array and the whole right array,
  multiplies them, and writes the 2000 × 128 product back to the same rows of the output.  Row p of a product reads row p
  of the left factor only, so block t of the output is block t of the product of the WHOLE arrays; the 25 blocks tile the
  50000 rows, so the output array ends holding that product.  Stated at any contents `V` the region may be entered from.
-/
import proofs.«129891_j60722247631313_1_alg».proof.Proof.Spec
import proofs.«129891_j60722247631313_1_alg».proof.Proof.Gen.KernelIdeal.Frame
import Idealize.ShloMosaic.Lib.Pipeline.Value

set_option maxRecDepth 16384

noncomputable section

namespace Cert.Gcn.Region0

open Idealize.ShloMosaic Idealize.ShloMosaic.TcCoe Idealize.ShloMosaic.ValueIdx Idealize.SL.Sem
open Idealize.ShloMosaic.Pipeline (Dat)
open Cert.KernelIdeal Cert.KernelIdeal.Gen Cert.LibDenseProduct

variable (V : (c : Dev nD) → (b : Ref sig .tc) → Buf (Elt Ideal) ((c : Thread nD τ).loc b))

theorem hz : (![0, 0] : Fin 2 → Nat) = fun _ => 0 := funext fun a => by fin_cases a <;> rfl

/-- The body's payload is the product of the two loaded blocks: the matrix unit into a zero accumulator, the change of
    number format on the way in being the identity on extended reals. -/
theorem pay_eq (x0 : Vec Ideal S2000x128 .f32) (x1 : Vec Ideal S128x128 .f32) :
    k0_pay1 x0 x1 = mm (m := 2000) (k := 128) (n := 128) (φ₁ := .f32) (φ₂ := .f32) x0 x1 := by
  unfold k0_pay1
  exact matmul_plain_zero_eq none (truncf .bf16 x0 bitsLt_bf16_f32) (truncf .bf16 x1 bitsLt_bf16_f32)

/-- The printed index maps, decided over the 25 grid points: the left array's and the output's block move with the point
    along the rows, the right array's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The right array's block at any point is the whole array. -/
theorem wblk_eq (c : Dev nD) (t : Fin cfg0.N) : (iblk0 V c 1 t : Vec Ideal S128x128 .f32) = V c main_arg2 := by
  obtain ⟨e0, e1, e2, e3, e4, e5⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- Row p of the left array's block at point t is row 2000·t + p of the array, the row the output's block puts it at. -/
theorem xblk_row (c : Dev nD) (t : Fin cfg0.N) (j : S2000x128.Idx) (cc : Fin 128) :
    (iblk0 V c 0 t : Vec Ideal S2000x128 .f32) (ix2 (j 0) cc)
      = V c main_arg0 (ix2 ((((cfg0.win 2).blk t).view.emb j) 0) cc) := by
  obtain ⟨e0, e1, e2, e3, e4, e5⟩ := idx_facts t
  show V c main_arg0 (((cfg0.win 0).blk t).view.emb (ix2 (j 0) cc)) = _
  refine congrArg (V c main_arg0) (funext fun a => Fin.ext ?_)
  match a with
  | ⟨0, _⟩ => show win0_0.index t (0 : Fin 2) * 2000 + 1 * (j 0).val = win0_2.index t (0 : Fin 2) * 2000 + 1 * (j 0).val; rw [e0, e4]
  | ⟨1, _⟩ => show win0_0.index t (1 : Fin 2) * 128 + 1 * cc.val = cc.val; rw [e1]; omega

/-- What point t writes back is block t of the product of the whole arrays. -/
theorem flushed_eq (c : Dev nD) (t : Fin cfg0.N) :
    (dat0 V c).flushed 2 t = ((cfg0.win 2).blk t).view.read (Elt Ideal)
      (mm (m := 50000) (k := 128) (n := 128) (φ₁ := .f32) (φ₂ := .f32) (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  rw [pay_eq, wblk_eq V c t]
  obtain ⟨e0, e1, e2, e3, e4, e5⟩ := idx_facts t
  funext j
  show mm (m := 2000) (k := 128) (n := 128) (φ₁ := .f32) (φ₂ := .f32) (iblk0 V c 0 t) (V c main_arg2) j
    = mm (m := 50000) (k := 128) (n := 128) (φ₁ := .f32) (φ₂ := .f32) (V c main_arg0) (V c main_arg2) (((cfg0.win 2).blk t).view.emb j)
  refine mm_rows (V c main_arg0) (V c main_arg2) (iblk0 V c 0 t) j (((cfg0.win 2).blk t).view.emb j) (fun cc => xblk_row V c t j cc) ?_
  apply Fin.ext
  show (j 1).val = win0_2.index t (1 : Fin 2) * 128 + 1 * (j 1).val
  rw [e5]; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v21).slice (win0_2.rect t)).set ↔ _
  rw [View.set_slice_whole, Rect.mem_set_unit]
  exact Iff.rfl

/-- Every row of the output lies in the block of the point numbered by the row's quotient by 2000. -/
theorem cover (i : S50000x128.Idx) : ∃ t : Fin cfg0.N, (cfg0.win 2).flush t = true ∧ i ∈ ((cfg0.win 2).blk t).view.set := by
  have hN : grid0.N = 25 := N_0
  have hi0 : (i 0).val < 50000 := (i 0).isLt
  have hi1 : (i 1).val < 128 := (i 1).isLt
  let t : Fin cfg0.N := ⟨(i 0).val / 2000, by show (i 0).val / 2000 < grid0.N; rw [hN]; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 128 ≤ (i 1).val ∧ (i 1).val < win0_2.index t (1 : Fin 2) * 128 + 128; rw [e5]; omega

/-- The output array after the region: the product of the two input arrays as the region found them. -/
theorem final (c : Dev nD) : (dat0 V c).arrAt 2 cfg0.N = mm (m := 50000) (k := 128) (n := 128) (φ₁ := .f32) (φ₂ := .f32) (V c main_arg0) (V c main_arg2) :=
  (dat0 V c).arrAt_eq_of_cover 2 _ (fun t _ => flushed_eq V c t) cover

end Cert.Gcn.Region0

end
-- ==== Proof.Body.lean ====
/-
  The fusion kernel's body, read at an index.

  On one block of 2000 rows the body computes o₁ = max(A + β, 0) and o₂ = max(B + β, 0) (β one row, repeated down the
  block), the logits o₁ · Wa + o₂ · Wb + b by two products on the matrix unit into zero accumulators, the gate
  g = logistic(logits), and stores g · o₁ + (1 − g) · o₂.  At the extended reals every step is the textbook one, a change
  of number format is the identity, and entry (p, q) of the stored block is `fuseAt` of the loaded blocks at (p, q).
-/
import proofs.«129891_j60722247631313_1_alg».proof.Proof.Spec
import proofs.«129891_j60722247631313_1_alg».proof.Proof.Gen.KernelIdeal.Skeleton
import Idealize.ShloMosaic.Lib.Pipeline.Value
import Idealize.ShloMosaic.Lib.ValueLayout

noncomputable section

namespace Cert.Gcn.Body

open Idealize.ShloMosaic Idealize.ShloMosaic.ValueIdx Cert.KernelIdeal Cert.KernelIdeal.Gen Cert.LibDenseProduct

/-- The rectified, biased block as the body spells it. -/
def act (x : FVec Ideal S2000x128 .f32) (β : FVec Ideal S1x128 .f32) : FVec Ideal S2000x128 .f32 :=
  maximumf (addf x (broadcastTo S2000x128 β broadcasts_S1x128_S2000x128))
    (broadcast S2000x128 (Scalar.ofBits (F := Ideal) .f32 0x00000000#32))

/-- Entry (p, c) of the rectified, biased block: max(x(p, c) + β(c), 0). -/
theorem act_apply (x : FVec Ideal S2000x128 .f32) (β : FVec Ideal S1x128 .f32) (p : Fin 2000) (c : Fin 128) :
    act x β (ix2 p c) = max (x (ix2 p c) + β (ix2 0 c)) zeroW := by
  show max (x (ix2 p c) + broadcastTo S2000x128 β broadcasts_S1x128_S2000x128 (ix2 p c)) _ = _
  rw [broadcastTo_1b_ab_apply]
  rfl

/-- Entry (p, q) of a block times a weight on the matrix unit, from the zero accumulator: the sum over the contracted
    coordinate.  The two factors enter rounded to a narrower format, which changes nothing on extended reals. -/
theorem unit_apply (o : FVec Ideal S2000x128 .f32) (w : FVec Ideal S128x128 .f32) (p : Fin 2000) (q : Fin 128) :
    matmul dot_S2000x128_S128x128_S2000x128_1_0_0_1_n_n none (truncf .bf16 o bitsLt_bf16_f32) (truncf .bf16 w bitsLt_bf16_f32)
        (constant (F := Ideal) S2000x128 .f32 0x00000000#32) (ix2 p q)
      = ∑ c : Fin 128, o (ix2 p c) * w (ix2 c q) :=
  Cert.LibMatmulPlain.matmul_plain_zero_apply (m := 2000) (k := 128) (n := 128) none
    (truncf .bf16 o bitsLt_bf16_f32) (truncf .bf16 w bitsLt_bf16_f32) p q

/-- The payload, with the identity casts gone, is the body's chain of array operations. -/
theorem pay_struct (x0 x1 : Vec Ideal S2000x128 .f32) (x2 : Vec Ideal S1x128 .f32) (x3 x4 : Vec Ideal S128x128 .f32)
    (x5 : Vec Ideal S1x128 .f32) :
    k1_pay1 x0 x1 x2 x3 x4 x5 =
      addf
        (mulf (logistic (addf (addf
            (matmul dot_S2000x128_S128x128_S2000x128_1_0_0_1_n_n none (truncf .bf16 (act x0 x2) bitsLt_bf16_f32) (truncf .bf16 x3 bitsLt_bf16_f32) (constant (F := Ideal) S2000x128 .f32 0x00000000#32))
            (matmul dot_S2000x128_S128x128_S2000x128_1_0_0_1_n_n none (truncf .bf16 (act x1 x2) bitsLt_bf16_f32) (truncf .bf16 x4 bitsLt_bf16_f32) (constant (F := Ideal) S2000x128 .f32 0x00000000#32)))
            (broadcastTo S2000x128 x5 broadcasts_S1x128_S2000x128))) (act x0 x2))
        (mulf (subf (broadcast S2000x128 (Scalar.ofBits (F := Ideal) .f32 0x3F800000#32))
          (logistic (addf (addf
            (matmul dot_S2000x128_S128x128_S2000x128_1_0_0_1_n_n none (truncf .bf16 (act x0 x2) bitsLt_bf16_f32) (truncf .bf16 x3 bitsLt_bf16_f32) (constant (F := Ideal) S2000x128 .f32 0x00000000#32))
            (matmul dot_S2000x128_S128x128_S2000x128_1_0_0_1_n_n none (truncf .bf16 (act x1 x2) bitsLt_bf16_f32) (truncf .bf16 x4 bitsLt_bf16_f32) (constant (F := Ideal) S2000x128 .f32 0x00000000#32)))
            (broadcastTo S2000x128 x5 broadcasts_S1x128_S2000x128)))) (act x1 x2)) := by
  unfold k1_pay1 act
  simp only [shapeCast_self]

/-- Entry (p, q) of what the body stores is the gated fusion of the loaded blocks at (p, q). -/
theorem pay_apply (x0 x1 : Vec Ideal S2000x128 .f32) (x2 : Vec Ideal S1x128 .f32) (x3 x4 : Vec Ideal S128x128 .f32)
    (x5 : Vec Ideal S1x128 .f32) (p : Fin 2000) (q : Fin 128) :
    k1_pay1 x0 x1 x2 x3 x4 x5 (ix2 p q) = fuseAt (n := 2000) x0 x1 x2 x3 x4 x5 p q := by
  rw [pay_struct]
  show Ideal.logistic
        (matmul dot_S2000x128_S128x128_S2000x128_1_0_0_1_n_n none (truncf .bf16 (act x0 x2) bitsLt_bf16_f32) (truncf .bf16 x3 bitsLt_bf16_f32) (constant (F := Ideal) S2000x128 .f32 0x00000000#32) (ix2 p q)
          + matmul dot_S2000x128_S128x128_S2000x128_1_0_0_1_n_n none (truncf .bf16 (act x1 x2) bitsLt_bf16_f32) (truncf .bf16 x4 bitsLt_bf16_f32) (constant (F := Ideal) S2000x128 .f32 0x00000000#32) (ix2 p q)
          + broadcastTo S2000x128 x5 broadcasts_S1x128_S2000x128 (ix2 p q))
        * act x0 x2 (ix2 p q)
      + (oneW - Ideal.logistic
        (matmul dot_S2000x128_S128x128_S2000x128_1_0_0_1_n_n none (truncf .bf16 (act x0 x2) bitsLt_bf16_f32) (truncf .bf16 x3 bitsLt_bf16_f32) (constant (F := Ideal) S2000x128 .f32 0x00000000#32) (ix2 p q)
          + matmul dot_S2000x128_S128x128_S2000x128_1_0_0_1_n_n none (truncf .bf16 (act x1 x2) bitsLt_bf16_f32) (truncf .bf16 x4 bitsLt_bf16_f32) (constant (F := Ideal) S2000x128 .f32 0x00000000#32) (ix2 p q)
          + broadcastTo S2000x128 x5 broadcasts_S1x128_S2000x128 (ix2 p q)))
        * act x1 x2 (ix2 p q) = _
  rw [unit_apply, unit_apply, broadcastTo_1b_ab_apply, act_apply, act_apply]
  simp only [act_apply]
  rfl

/-- The second fusion region's body is the same chain of operations. -/
theorem pay3_eq (x0 x1 : Vec Ideal S2000x128 .f32) (x2 : Vec Ideal S1x128 .f32) (x3 x4 : Vec Ideal S128x128 .f32)
    (x5 : Vec Ideal S1x128 .f32) : k3_pay1 x0 x1 x2 x3 x4 x5 = k1_pay1 x0 x1 x2 x3 x4 x5 := rfl

end Cert.Gcn.Body

end
-- ==== Proof.Region1.lean ====
/-
  Region 1 of the kernel program: the gated fusion, tiled over blocks of 2000 rows.

  The grid has 25 points; point t loads rows 2000·t … 2000·t + 1999 of the two aggregated arrays, the bias row, the two
  gate weights and the gate bias whole, and writes the fused 2000 × 128 block back to the same rows of the output.  Row p
  of the fusion reads row p of the two aggregated arrays only, so block t of the output is block t of the fusion of the
  WHOLE arrays; the 25 blocks tile the 50000 rows, so the output array ends holding that fusion.  Stated at any contents
  `V` the region may be entered from.
-/
import proofs.«129891_j60722247631313_1_alg».proof.Proof.Spec
import proofs.«129891_j60722247631313_1_alg».proof.Proof.Body
import proofs.«129891_j60722247631313_1_alg».proof.Proof.Gen.KernelIdeal.Frame
import Idealize.ShloMosaic.Lib.Pipeline.Value

set_option maxRecDepth 16384

noncomputable section

namespace Cert.Gcn.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the two aggregated arrays' and the output's block move with
    the point along the rows; the bias row, the gate weights and the gate bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The bias row's block at any point is the whole row. -/
theorem blk2_eq (c : Dev nD) (t : Fin cfg1.N) : (iblk1 V c 2 t : Vec Ideal S1x128 .f32) = V c main_v88 := by
  obtain ⟨e0, e1, e2, e3, e4, e5, e6, e7, e8, e9, e10, e11, e12, e13⟩ := idx_facts t
  funext y
  show V c main_v88 (((cfg1.win 2).blk t).view.emb y) = V c main_v88 y
  refine congrArg (V c main_v88) (funext fun a => Fin.ext ?_)
  match a with
  | ⟨0, _⟩ => show win1_2.index t (0 : Fin 2) * 1 + 1 * (y 0).val = (y 0).val; rw [e4]; omega
  | ⟨1, _⟩ => show win1_2.index t (1 : Fin 2) * 128 + 1 * (y 1).val = (y 1).val; rw [e5]; omega

/-- The first gate weight's block at any point is the whole weight. -/
theorem blk3_eq (c : Dev nD) (t : Fin cfg1.N) : (iblk1 V c 3 t : Vec Ideal S128x128 .f32) = V c main_v17 := by
  obtain ⟨e0, e1, e2, e3, e4, e5, e6, e7, e8, e9, e10, e11, e12, e13⟩ := idx_facts t
  funext y
  show V c main_v17 (((cfg1.win 3).blk t).view.emb y) = V c main_v17 y
  refine congrArg (V c main_v17) (funext fun a => Fin.ext ?_)
  match a with
  | ⟨0, _⟩ => show win1_3.index t (0 : Fin 2) * 128 + 1 * (y 0).val = (y 0).val; rw [e6]; omega
  | ⟨1, _⟩ => show win1_3.index t (1 : Fin 2) * 128 + 1 * (y 1).val = (y 1).val; rw [e7]; omega

/-- The second gate weight's block at any point is the whole weight. -/
theorem blk4_eq (c : Dev nD) (t : Fin cfg1.N) : (iblk1 V c 4 t : Vec Ideal S128x128 .f32) = V c main_v18 := by
  obtain ⟨e0, e1, e2, e3, e4, e5, e6, e7, e8, e9, e10, e11, e12, e13⟩ := idx_facts t
  funext y
  show V c main_v18 (((cfg1.win 4).blk t).view.emb y) = V c main_v18 y
  refine congrArg (V c main_v18) (funext fun a => Fin.ext ?_)
  match a with
  | ⟨0, _⟩ => show win1_4.index t (0 : Fin 2) * 128 + 1 * (y 0).val = (y 0).val; rw [e8]; omega
  | ⟨1, _⟩ => show win1_4.index t (1 : Fin 2) * 128 + 1 * (y 1).val = (y 1).val; rw [e9]; omega

/-- The gate bias's block at any point is the whole row. -/
theorem blk5_eq (c : Dev nD) (t : Fin cfg1.N) : (iblk1 V c 5 t : Vec Ideal S1x128 .f32) = V c main_v89 := by
  obtain ⟨e0, e1, e2, e3, e4, e5, e6, e7, e8, e9, e10, e11, e12, e13⟩ := idx_facts t
  funext y
  show V c main_v89 (((cfg1.win 5).blk t).view.emb y) = V c main_v89 y
  refine congrArg (V c main_v89) (funext fun a => Fin.ext ?_)
  match a with
  | ⟨0, _⟩ => show win1_5.index t (0 : Fin 2) * 1 + 1 * (y 0).val = (y 0).val; rw [e10]; omega
  | ⟨1, _⟩ => show win1_5.index t (1 : Fin 2) * 128 + 1 * (y 1).val = (y 1).val; rw [e11]; omega

/-- Row p of the first aggregated array's block at point t is the row of the array the output's block puts it at. -/
theorem ablk_row (c : Dev nD) (t : Fin cfg1.N) (j : S2000x128.Idx) (cc : Fin 128) :
    (iblk1 V c 0 t : Vec Ideal S2000x128 .f32) (ix2 (j 0) cc)
      = V c main_v54 (ix2 ((((cfg1.win 6).blk t).view.emb j) 0) cc) := by
  obtain ⟨e0, e1, e2, e3, e4, e5, e6, e7, e8, e9, e10, e11, e12, e13⟩ := idx_facts t
  show V c main_v54 (((cfg1.win 0).blk t).view.emb (ix2 (j 0) cc)) = _
  refine congrArg (V c main_v54) (funext fun a => Fin.ext ?_)
  match a with
  | ⟨0, _⟩ => show win1_0.index t (0 : Fin 2) * 2000 + 1 * (j 0).val = win1_6.index t (0 : Fin 2) * 2000 + 1 * (j 0).val; rw [e0, e12]
  | ⟨1, _⟩ => show win1_0.index t (1 : Fin 2) * 128 + 1 * cc.val = cc.val; rw [e1]; omega

/-- The same for the second aggregated array. -/
theorem bblk_row (c : Dev nD) (t : Fin cfg1.N) (j : S2000x128.Idx) (cc : Fin 128) :
    (iblk1 V c 1 t : Vec Ideal S2000x128 .f32) (ix2 (j 0) cc)
      = V c main_v87 (ix2 ((((cfg1.win 6).blk t).view.emb j) 0) cc) := by
  obtain ⟨e0, e1, e2, e3, e4, e5, e6, e7, e8, e9, e10, e11, e12, e13⟩ := idx_facts t
  show V c main_v87 (((cfg1.win 1).blk t).view.emb (ix2 (j 0) cc)) = _
  refine congrArg (V c main_v87) (funext fun a => Fin.ext ?_)
  match a with
  | ⟨0, _⟩ => show win1_1.index t (0 : Fin 2) * 2000 + 1 * (j 0).val = win1_6.index t (0 : Fin 2) * 2000 + 1 * (j 0).val; rw [e2, e12]
  | ⟨1, _⟩ => show win1_1.index t (1 : Fin 2) * 128 + 1 * cc.val = cc.val; rw [e3]; omega

/-- What point t writes back is block t of the fusion of the whole arrays. -/
theorem flushed_eq (c : Dev nD) (t : Fin cfg1.N) :
    (dat1 V c).flushed 6 t = ((cfg1.win 6).blk t).view.read (Elt Ideal)
      (fuse (n := 50000) (V c main_v54) (V c main_v87) (V c main_v88) (V c main_v17) (V c main_v18) (V c main_v89)) := by
  show (cfg1.win 6).cut (grid1.coords t) ((dat1 V c).after 6 t) = _
  rw [after1_6]
  unfold out1_6
  rw [View.canon_unit_zero hz]
  simp only [View.ld_unit_zero (S := S2000x128) hz, View.ld_unit_zero (S := S1x128) hz, View.ld_unit_zero (S := S128x128) hz]
  rw [blk2_eq V c t, blk3_eq V c t, blk4_eq V c t, blk5_eq V c t]
  obtain ⟨e0, e1, e2, e3, e4, e5, e6, e7, e8, e9, e10, e11, e12, e13⟩ := idx_facts t
  funext j
  have hq : ((((cfg1.win 6).blk t).view.emb j) 1 : Fin 128) = j 1 :=
    Fin.ext (by show win1_6.index t (1 : Fin 2) * 128 + 1 * (j 1).val = (j 1).val; rw [e13]; omega)
  show k1_pay1 (iblk1 V c 0 t) (iblk1 V c 1 t) (V c main_v88) (V c main_v17) (V c main_v18) (V c main_v89) j
    = fuseAt (n := 50000) (V c main_v54) (V c main_v87) (V c main_v88) (V c main_v17) (V c main_v18) (V c main_v89)
        ((((cfg1.win 6).blk t).view.emb j) 0) ((((cfg1.win 6).blk t).view.emb j) 1)
  rw [hq]
  refine (congrArg (k1_pay1 (iblk1 V c 0 t) (iblk1 V c 1 t) (V c main_v88) (V c main_v17) (V c main_v18) (V c main_v89)) (eq_ix2 j)).trans ?_
  refine ((Cert.Gcn.Body.pay_apply (iblk1 V c 0 t) (iblk1 V c 1 t) (V c main_v88) (V c main_v17) (V c main_v18) (V c main_v89) (j 0) (j 1))).trans ?_
  exact fuseAt_rows (iblk1 V c 0 t) (iblk1 V c 1 t) (V c main_v54) (V c main_v87) (V c main_v88) (V c main_v17) (V c main_v18) (V c main_v89)
    (j 0) ((((cfg1.win 6).blk t).view.emb j) 0) (j 1) (fun cc => ablk_row V c t j cc) (fun cc => bblk_row V c t j cc)

/-- An index of the output array is in point t's block iff each coordinate is in the block's range on its axis. -/
theorem mem_blk (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v90).slice (win1_6.rect t)).set ↔ _
  rw [View.set_slice_whole, Rect.mem_set_unit]
  exact Iff.rfl

/-- Every row of the output lies in the block of the point numbered by the row's quotient by 2000. -/
theorem cover (i : S50000x128.Idx) : ∃ t : Fin cfg1.N, (cfg1.win 6).flush t = true ∧ i ∈ ((cfg1.win 6).blk t).view.set := by
  have hN : grid1.N = 25 := N_1
  have hi0 : (i 0).val < 50000 := (i 0).isLt
  have hi1 : (i 1).val < 128 := (i 1).isLt
  let t : Fin cfg1.N := ⟨(i 0).val / 2000, by show (i 0).val / 2000 < grid1.N; rw [hN]; omega⟩
  obtain ⟨e0, e1, e2, e3, e4, e5, e6, e7, e8, e9, e10, e11, e12, e13⟩ := idx_facts t
  have ht : t.val = (i 0).val / 2000 := rfl
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; rw [e12, ht]; omega
  | ⟨1, _⟩ => show win1_6.index t (1 : Fin 2) * 128 ≤ (i 1).val ∧ (i 1).val < win1_6.index t (1 : Fin 2) * 128 + 128; rw [e13]; omega

/-- The output array after the region: the fusion of the input arrays as the region found them. -/
theorem final (c : Dev nD) : (dat1 V c).arrAt 6 cfg1.N
    = fuse (n := 50000) (V c main_v54) (V c main_v87) (V c main_v88) (V c main_v17) (V c main_v18) (V c main_v89) :=
  (dat1 V c).arrAt_eq_of_cover 6 _ (fun t _ => flushed_eq V c t) cover

end Cert.Gcn.Region1

end
-- ==== Proof.Region2.lean ====
/-
  Region 2 of the kernel program: the dense product, tiled over blocks of 2000 rows.

  The region's grid has 25 points; point t loads rows 2000·t … 2000·t + 1999 of the left array and the whole right array,
  multiplies them, and writes the 2000 × 128 product back to the same rows of the output.  Row p of a product reads row p
  of the left factor only, so block t of the output is block t of the product of the WHOLE arrays; the 25 blocks tile the
  50000 rows, so the output array ends holding that product.  Stated at any contents `V` the region may be entered from.
-/
import proofs.«129891_j60722247631313_1_alg».proof.Proof.Spec
import proofs.«129891_j60722247631313_1_alg».proof.Proof.Gen.KernelIdeal.Frame
import Idealize.ShloMosaic.Lib.Pipeline.Value

set_option maxRecDepth 16384

noncomputable section

namespace Cert.Gcn.Region2

open Idealize.ShloMosaic Idealize.ShloMosaic.TcCoe Idealize.ShloMosaic.ValueIdx Idealize.SL.Sem
open Idealize.ShloMosaic.Pipeline (Dat)
open Cert.KernelIdeal Cert.KernelIdeal.Gen Cert.LibDenseProduct

variable (V : (c : Dev nD) → (b : Ref sig .tc) → Buf (Elt Ideal) ((c : Thread nD τ).loc b))

theorem hz : (![0, 0] : Fin 2 → Nat) = fun _ => 0 := funext fun a => by fin_cases a <;> rfl

/-- The body's payload is the product of the two loaded blocks: the matrix unit into a zero accumulator, the change of
    number format on the way in being the identity on extended reals. -/
theorem pay_eq (x0 : Vec Ideal S2000x128 .f32) (x1 : Vec Ideal S128x128 .f32) :
    k2_pay1 x0 x1 = mm (m := 2000) (k := 128) (n := 128) (φ₁ := .f32) (φ₂ := .f32) x0 x1 := by
  unfold k2_pay1
  simp only [shapeCast_self]
  exact matmul_plain_zero_eq none (truncf .bf16 x0 bitsLt_bf16_f32) (truncf .bf16 x1 bitsLt_bf16_f32)

/-- The printed index maps, decided over the 25 grid points: the left array's and the output's block move with the point
    along the rows, the right array's block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The right array's block at any point is the whole array. -/
theorem wblk_eq (c : Dev nD) (t : Fin cfg2.N) : (iblk2 V c 1 t : Vec Ideal S128x128 .f32) = V c main_arg4 := by
  obtain ⟨e0, e1, e2, e3, e4, e5⟩ := idx_facts t
  funext y
  show V c main_arg4 (((cfg2.win 1).blk t).view.emb y) = V c main_arg4 y
  refine congrArg (V c main_arg4) (funext fun a => Fin.ext ?_)
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- Row p of the left array's block at point t is row 2000·t + p of the array, the row the output's block puts it at. -/
theorem xblk_row (c : Dev nD) (t : Fin cfg2.N) (j : S2000x128.Idx) (cc : Fin 128) :
    (iblk2 V c 0 t : Vec Ideal S2000x128 .f32) (ix2 (j 0) cc)
      = V c main_v90 (ix2 ((((cfg2.win 2).blk t).view.emb j) 0) cc) := by
  obtain ⟨e0, e1, e2, e3, e4, e5⟩ := idx_facts t
  show V c main_v90 (((cfg2.win 0).blk t).view.emb (ix2 (j 0) cc)) = _
  refine congrArg (V c main_v90) (funext fun a => Fin.ext ?_)
  match a with
  | ⟨0, _⟩ => show win2_0.index t (0 : Fin 2) * 2000 + 1 * (j 0).val = win2_2.index t (0 : Fin 2) * 2000 + 1 * (j 0).val; rw [e0, e4]
  | ⟨1, _⟩ => show win2_0.index t (1 : Fin 2) * 128 + 1 * cc.val = cc.val; rw [e1]; omega

/-- What point t writes back is block t of the product of the whole arrays. -/
theorem flushed_eq (c : Dev nD) (t : Fin cfg2.N) :
    (dat2 V c).flushed 2 t = ((cfg2.win 2).blk t).view.read (Elt Ideal)
      (mm (m := 50000) (k := 128) (n := 128) (φ₁ := .f32) (φ₂ := .f32) (V c main_v90) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  rw [pay_eq, wblk_eq V c t]
  obtain ⟨e0, e1, e2, e3, e4, e5⟩ := idx_facts t
  funext j
  show mm (m := 2000) (k := 128) (n := 128) (φ₁ := .f32) (φ₂ := .f32) (iblk2 V c 0 t) (V c main_arg4) j
    = mm (m := 50000) (k := 128) (n := 128) (φ₁ := .f32) (φ₂ := .f32) (V c main_v90) (V c main_arg4) (((cfg2.win 2).blk t).view.emb j)
  refine mm_rows (V c main_v90) (V c main_arg4) (iblk2 V c 0 t) j (((cfg2.win 2).blk t).view.emb j) (fun cc => xblk_row V c t j cc) ?_
  apply Fin.ext
  show (j 1).val = win2_2.index t (1 : Fin 2) * 128 + 1 * (j 1).val
  rw [e5]; omega

/-- An index of the output array is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v91).slice (win2_2.rect t)).set ↔ _
  rw [View.set_slice_whole, Rect.mem_set_unit]
  exact Iff.rfl

/-- Every row of the output lies in the block of the point numbered by the row's quotient by 2000. -/
theorem cover (i : S50000x128.Idx) : ∃ t : Fin cfg2.N, (cfg2.win 2).flush t = true ∧ i ∈ ((cfg2.win 2).blk t).view.set := by
  have hN : grid2.N = 25 := N_2
  have hi0 : (i 0).val < 50000 := (i 0).isLt
  have hi1 : (i 1).val < 128 := (i 1).isLt
  let t : Fin cfg2.N := ⟨(i 0).val / 2000, by show (i 0).val / 2000 < grid2.N; rw [hN]; omega⟩
  obtain ⟨e0, e1, e2, e3, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 128 ≤ (i 1).val ∧ (i 1).val < win2_2.index t (1 : Fin 2) * 128 + 128; rw [e5]; omega

/-- The output array after the region: the product of the two input arrays as the region found them. -/
theorem final (c : Dev nD) : (dat2 V c).arrAt 2 cfg2.N = mm (m := 50000) (k := 128) (n := 128) (φ₁ := .f32) (φ₂ := .f32) (V c main_v90) (V c main_arg4) :=
  (dat2 V c).arrAt_eq_of_cover 2 _ (fun t _ => flushed_eq V c t) cover

end Cert.Gcn.Region2

end
-- ==== Proof.Region3.lean ====
/-
  Region 3 of the kernel program: the gated fusion, tiled over blocks of 2000 rows.

  The grid has 25 points; point t loads rows 2000·t … 2000·t + 1999 of the two aggregated arrays, the bias row, the two
  gate weights and the gate bias whole, and writes the fused 2000 × 128 block back to the same rows of the output.  Row p
  of the fusion reads row p of the two aggregated arrays only, so block t of the output is block t of the fusion of the
  WHOLE arrays; the 25 blocks tile the 50000 rows, so the output array ends holding that fusion.  Stated at any contents
  `V` the region may be entered from.
-/
import proofs.«129891_j60722247631313_1_alg».proof.Proof.Spec
import proofs.«129891_j60722247631313_1_alg».proof.Proof.Body
import proofs.«129891_j60722247631313_1_alg».proof.Proof.Gen.KernelIdeal.Frame
import Idealize.ShloMosaic.Lib.Pipeline.Value

set_option maxRecDepth 16384

noncomputable section

namespace Cert.Gcn.Region3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the two aggregated arrays' and the output's block move with
    the point along the rows; the bias row, the gate weights and the gate bias stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The bias row's block at any point is the whole row. -/
theorem blk2_eq (c : Dev nD) (t : Fin cfg3.N) : (iblk3 V c 2 t : Vec Ideal S1x128 .f32) = V c main_v158 := by
  obtain ⟨e0, e1, e2, e3, e4, e5, e6, e7, e8, e9, e10, e11, e12, e13⟩ := idx_facts t
  funext y
  show V c main_v158 (((cfg3.win 2).blk t).view.emb y) = V c main_v158 y
  refine congrArg (V c main_v158) (funext fun a => Fin.ext ?_)
  match a with
  | ⟨0, _⟩ => show win3_2.index t (0 : Fin 2) * 1 + 1 * (y 0).val = (y 0).val; rw [e4]; omega
  | ⟨1, _⟩ => show win3_2.index t (1 : Fin 2) * 128 + 1 * (y 1).val = (y 1).val; rw [e5]; omega

/-- The first gate weight's block at any point is the whole weight. -/
theorem blk3_eq (c : Dev nD) (t : Fin cfg3.N) : (iblk3 V c 3 t : Vec Ideal S128x128 .f32) = V c main_v19 := by
  obtain ⟨e0, e1, e2, e3, e4, e5, e6, e7, e8, e9, e10, e11, e12, e13⟩ := idx_facts t
  funext y
  show V c main_v19 (((cfg3.win 3).blk t).view.emb y) = V c main_v19 y
  refine congrArg (V c main_v19) (funext fun a => Fin.ext ?_)
  match a with
  | ⟨0, _⟩ => show win3_3.index t (0 : Fin 2) * 128 + 1 * (y 0).val = (y 0).val; rw [e6]; omega
  | ⟨1, _⟩ => show win3_3.index t (1 : Fin 2) * 128 + 1 * (y 1).val = (y 1).val; rw [e7]; omega

/-- The second gate weight's block at any point is the whole weight. -/
theorem blk4_eq (c : Dev nD) (t : Fin cfg3.N) : (iblk3 V c 4 t : Vec Ideal S128x128 .f32) = V c main_v20 := by
  obtain ⟨e0, e1, e2, e3, e4, e5, e6, e7, e8, e9, e10, e11, e12, e13⟩ := idx_facts t
  funext y
  show V c main_v20 (((cfg3.win 4).blk t).view.emb y) = V c main_v20 y
  refine congrArg (V c main_v20) (funext fun a => Fin.ext ?_)
  match a with
  | ⟨0, _⟩ => show win3_4.index t (0 : Fin 2) * 128 + 1 * (y 0).val = (y 0).val; rw [e8]; omega
  | ⟨1, _⟩ => show win3_4.index t (1 : Fin 2) * 128 + 1 * (y 1).val = (y 1).val; rw [e9]; omega

/-- The gate bias's block at any point is the whole row. -/
theorem blk5_eq (c : Dev nD) (t : Fin cfg3.N) : (iblk3 V c 5 t : Vec Ideal S1x128 .f32) = V c main_v159 := by
  obtain ⟨e0, e1, e2, e3, e4, e5, e6, e7, e8, e9, e10, e11, e12, e13⟩ := idx_facts t
  funext y
  show V c main_v159 (((cfg3.win 5).blk t).view.emb y) = V c main_v159 y
  refine congrArg (V c main_v159) (funext fun a => Fin.ext ?_)
  match a with
  | ⟨0, _⟩ => show win3_5.index t (0 : Fin 2) * 1 + 1 * (y 0).val = (y 0).val; rw [e10]; omega
  | ⟨1, _⟩ => show win3_5.index t (1 : Fin 2) * 128 + 1 * (y 1).val = (y 1).val; rw [e11]; omega

/-- Row p of the first aggregated array's block at point t is the row of the array the output's block puts it at. -/
theorem ablk_row (c : Dev nD) (t : Fin cfg3.N) (j : S2000x128.Idx) (cc : Fin 128) :
    (iblk3 V c 0 t : Vec Ideal S2000x128 .f32) (ix2 (j 0) cc)
      = V c main_v124 (ix2 ((((cfg3.win 6).blk t).view.emb j) 0) cc) := by
  obtain ⟨e0, e1, e2, e3, e4, e5, e6, e7, e8, e9, e10, e11, e12, e13⟩ := idx_facts t
  show V c main_v124 (((cfg3.win 0).blk t).view.emb (ix2 (j 0) cc)) = _
  refine congrArg (V c main_v124) (funext fun a => Fin.ext ?_)
  match a with
  | ⟨0, _⟩ => show win3_0.index t (0 : Fin 2) * 2000 + 1 * (j 0).val = win3_6.index t (0 : Fin 2) * 2000 + 1 * (j 0).val; rw [e0, e12]
  | ⟨1, _⟩ => show win3_0.index t (1 : Fin 2) * 128 + 1 * cc.val = cc.val; rw [e1]; omega

/-- The same for the second aggregated array. -/
theorem bblk_row (c : Dev nD) (t : Fin cfg3.N) (j : S2000x128.Idx) (cc : Fin 128) :
    (iblk3 V c 1 t : Vec Ideal S2000x128 .f32) (ix2 (j 0) cc)
      = V c main_v157 (ix2 ((((cfg3.win 6).blk t).view.emb j) 0) cc) := by
  obtain ⟨e0, e1, e2, e3, e4, e5, e6, e7, e8, e9, e10, e11, e12, e13⟩ := idx_facts t
  show V c main_v157 (((cfg3.win 1).blk t).view.emb (ix2 (j 0) cc)) = _
  refine congrArg (V c main_v157) (funext fun a => Fin.ext ?_)
  match a with
  | ⟨0, _⟩ => show win3_1.index t (0 : Fin 2) * 2000 + 1 * (j 0).val = win3_6.index t (0 : Fin 2) * 2000 + 1 * (j 0).val; rw [e2, e12]
  | ⟨1, _⟩ => show win3_1.index t (1 : Fin 2) * 128 + 1 * cc.val = cc.val; rw [e3]; omega

/-- What point t writes back is block t of the fusion of the whole arrays. -/
theorem flushed_eq (c : Dev nD) (t : Fin cfg3.N) :
    (dat3 V c).flushed 6 t = ((cfg3.win 6).blk t).view.read (Elt Ideal)
      (fuse (n := 50000) (V c main_v124) (V c main_v157) (V c main_v158) (V c main_v19) (V c main_v20) (V c main_v159)) := by
  show (cfg3.win 6).cut (grid3.coords t) ((dat3 V c).after 6 t) = _
  rw [after3_6]
  unfold out3_6
  rw [View.canon_unit_zero hz]
  simp only [View.ld_unit_zero (S := S2000x128) hz, View.ld_unit_zero (S := S1x128) hz, View.ld_unit_zero (S := S128x128) hz]
  rw [blk2_eq V c t, blk3_eq V c t, blk4_eq V c t, blk5_eq V c t]
  obtain ⟨e0, e1, e2, e3, e4, e5, e6, e7, e8, e9, e10, e11, e12, e13⟩ := idx_facts t
  funext j
  have hq : ((((cfg3.win 6).blk t).view.emb j) 1 : Fin 128) = j 1 :=
    Fin.ext (by show win3_6.index t (1 : Fin 2) * 128 + 1 * (j 1).val = (j 1).val; rw [e13]; omega)
  show k3_pay1 (iblk3 V c 0 t) (iblk3 V c 1 t) (V c main_v158) (V c main_v19) (V c main_v20) (V c main_v159) j
    = fuseAt (n := 50000) (V c main_v124) (V c main_v157) (V c main_v158) (V c main_v19) (V c main_v20) (V c main_v159)
        ((((cfg3.win 6).blk t).view.emb j) 0) ((((cfg3.win 6).blk t).view.emb j) 1)
  rw [hq]
  refine (congrArg (k3_pay1 (iblk3 V c 0 t) (iblk3 V c 1 t) (V c main_v158) (V c main_v19) (V c main_v20) (V c main_v159)) (eq_ix2 j)).trans ?_
  refine ((congrFun (Cert.Gcn.Body.pay3_eq _ _ _ _ _ _) _).trans (Cert.Gcn.Body.pay_apply (iblk3 V c 0 t) (iblk3 V c 1 t) (V c main_v158) (V c main_v19) (V c main_v20) (V c main_v159) (j 0) (j 1))).trans ?_
  exact fuseAt_rows (iblk3 V c 0 t) (iblk3 V c 1 t) (V c main_v124) (V c main_v157) (V c main_v158) (V c main_v19) (V c main_v20) (V c main_v159)
    (j 0) ((((cfg3.win 6).blk t).view.emb j) 0) (j 1) (fun cc => ablk_row V c t j cc) (fun cc => bblk_row V c t j cc)

/-- An index of the output array is in point t's block iff each coordinate is in the block's range on its axis. -/
theorem mem_blk (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v160).slice (win3_6.rect t)).set ↔ _
  rw [View.set_slice_whole, Rect.mem_set_unit]
  exact Iff.rfl

/-- Every row of the output lies in the block of the point numbered by the row's quotient by 2000. -/
theorem cover (i : S50000x128.Idx) : ∃ t : Fin cfg3.N, (cfg3.win 6).flush t = true ∧ i ∈ ((cfg3.win 6).blk t).view.set := by
  have hN : grid3.N = 25 := N_3
  have hi0 : (i 0).val < 50000 := (i 0).isLt
  have hi1 : (i 1).val < 128 := (i 1).isLt
  let t : Fin cfg3.N := ⟨(i 0).val / 2000, by show (i 0).val / 2000 < grid3.N; rw [hN]; omega⟩
  obtain ⟨e0, e1, e2, e3, e4, e5, e6, e7, e8, e9, e10, e11, e12, e13⟩ := idx_facts t
  have ht : t.val = (i 0).val / 2000 := rfl
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; rw [e12, ht]; omega
  | ⟨1, _⟩ => show win3_6.index t (1 : Fin 2) * 128 ≤ (i 1).val ∧ (i 1).val < win3_6.index t (1 : Fin 2) * 128 + 128; rw [e13]; omega

/-- The output array after the region: the fusion of the input arrays as the region found them. -/
theorem final (c : Dev nD) : (dat3 V c).arrAt 6 cfg3.N
    = fuse (n := 50000) (V c main_v124) (V c main_v157) (V c main_v158) (V c main_v19) (V c main_v20) (V c main_v159) :=
  (dat3 V c).arrAt_eq_of_cover 6 _ (fun t _ => flushed_eq V c t) cover

end Cert.Gcn.Region3

end
-- ==== Proof.KernelValue.lean ====
/-
  The result array of the kernel program, as a function of the twelve arguments.

  The program's buffers are followed from the launch through its seven segments, boundary by boundary: a stretch of host
  operations leaves in each buffer it writes the named function of the buffers it reads and leaves every other buffer
  alone; a region leaves in its output array the product, or the fusion, of its input arrays as it found them, and leaves
  every other buffer alone.  Carried to the last boundary, the result array holds the two-layer network of the arguments.
-/
import proofs.«129891_j60722247631313_1_alg».proof.Proof.Spec
import proofs.«129891_j60722247631313_1_alg».proof.Proof.HostRead
import proofs.«129891_j60722247631313_1_alg».proof.Proof.Region0
import proofs.«129891_j60722247631313_1_alg».proof.Proof.Region1
import proofs.«129891_j60722247631313_1_alg».proof.Proof.Region2
import proofs.«129891_j60722247631313_1_alg».proof.Proof.Region3
import proofs.«129891_j60722247631313_1_alg».proof.Proof.Gen.KernelIdeal.Frame

set_option maxRecDepth 16384

noncomputable section

namespace Cert.Gcn.Kernel

open Idealize.ShloMosaic Idealize.ShloMosaic.TcCoe Idealize.SL.Sem
open Cert.KernelIdeal Cert.KernelIdeal.Gen Cert.LibDenseProduct

variable (m : (ℓ : Loc nD τ sig) → Buf (Elt Ideal) ℓ) (ρ : Dev nD → PrngReg) (c : Dev nD)

theorem L1_v1 : W1 m ρ c (Proc.devRef .tc main_v1) = (srcOf (m ((c : Thread nD τ).loc main_arg1))) :=
  Host.ops0_v1 (W0 m ρ c)
theorem L1_v3 : W1 m ρ c (Proc.devRef .tc main_v3) = (dstOf (m ((c : Thread nD τ).loc main_arg1))) :=
  Host.ops0_v3 (W0 m ρ c)
theorem L1_v15 : W1 m ρ c (Proc.devRef .tc main_v15) = (dinv (dstOf (m ((c : Thread nD τ).loc main_arg1)))) :=
  Host.ops0_v15 (W0 m ρ c)
theorem L1_v16 : W1 m ρ c (Proc.devRef .tc main_v16) = (dinv (srcOf (m ((c : Thread nD τ).loc main_arg1)))) :=
  Host.ops0_v16 (W0 m ρ c)
theorem L1_v17 : W1 m ρ c (Proc.devRef .tc main_v17) = (tr (m ((c : Thread nD τ).loc main_arg6))) :=
  Host.ops0_v17 (W0 m ρ c)
theorem L1_v18 : W1 m ρ c (Proc.devRef .tc main_v18) = (tr (m ((c : Thread nD τ).loc main_arg7))) :=
  Host.ops0_v18 (W0 m ρ c)
theorem L1_v19 : W1 m ρ c (Proc.devRef .tc main_v19) = (tr (m ((c : Thread nD τ).loc main_arg9))) :=
  Host.ops0_v19 (W0 m ρ c)
theorem L1_v20 : W1 m ρ c (Proc.devRef .tc main_v20) = (tr (m ((c : Thread nD τ).loc main_arg10))) :=
  Host.ops0_v20 (W0 m ρ c)
theorem L1_arg0 : W1 m ρ c (Proc.devRef .tc main_arg0) = (m ((c : Thread nD τ).loc main_arg0)) :=
  Host.keep0_arg0 (W0 m ρ c)
theorem L1_arg2 : W1 m ρ c (Proc.devRef .tc main_arg2) = (m ((c : Thread nD τ).loc main_arg2)) :=
  Host.keep0_arg2 (W0 m ρ c)
theorem L1_arg3 : W1 m ρ c (Proc.devRef .tc main_arg3) = (m ((c : Thread nD τ).loc main_arg3)) :=
  Host.keep0_arg3 (W0 m ρ c)
theorem L1_arg4 : W1 m ρ c (Proc.devRef .tc main_arg4) = (m ((c : Thread nD τ).loc main_arg4)) :=
  Host.keep0_arg4 (W0 m ρ c)
theorem L1_arg5 : W1 m ρ c (Proc.devRef .tc main_arg5) = (m ((c : Thread nD τ).loc main_arg5)) :=
  Host.keep0_arg5 (W0 m ρ c)
theorem L1_arg8 : W1 m ρ c (Proc.devRef .tc main_arg8) = (m ((c : Thread nD τ).loc main_arg8)) :=
  Host.keep0_arg8 (W0 m ρ c)
theorem L1_arg11 : W1 m ρ c (Proc.devRef .tc main_arg11) = (m ((c : Thread nD τ).loc main_arg11)) :=
  Host.keep0_arg11 (W0 m ρ c)
/-- Region 0 leaves the first product in its output array. -/
theorem L2_v21 : W2 m ρ c (Proc.devRef .tc main_v21) = (mm (m := 50000) (k := 128) (n := 128) (φ₁ := .f32) (φ₂ := .f32) (m ((c : Thread nD τ).loc main_arg0)) (m ((c : Thread nD τ).loc main_arg2))) :=
  (W2_arr m ρ c 2).trans ((Region0.final (V1 m ρ) c).trans (by
    rw [show V1 m ρ c main_arg0 = _ from L1_arg0 m ρ c, show V1 m ρ c main_arg2 = _ from L1_arg2 m ρ c]))
theorem L2_v1 : W2 m ρ c (Proc.devRef .tc main_v1) = (srcOf (m ((c : Thread nD τ).loc main_arg1))) :=
  (W2_of_ne m ρ c main_v1 (by decide)).trans (L1_v1 m ρ c)
theorem L2_v3 : W2 m ρ c (Proc.devRef .tc main_v3) = (dstOf (m ((c : Thread nD τ).loc main_arg1))) :=
  (W2_of_ne m ρ c main_v3 (by decide)).trans (L1_v3 m ρ c)
theorem L2_v15 : W2 m ρ c (Proc.devRef .tc main_v15) = (dinv (dstOf (m ((c : Thread nD τ).loc main_arg1)))) :=
  (W2_of_ne m ρ c main_v15 (by decide)).trans (L1_v15 m ρ c)
theorem L2_v16 : W2 m ρ c (Proc.devRef .tc main_v16) = (dinv (srcOf (m ((c : Thread nD τ).loc main_arg1)))) :=
  (W2_of_ne m ρ c main_v16 (by decide)).trans (L1_v16 m ρ c)
theorem L2_v17 : W2 m ρ c (Proc.devRef .tc main_v17) = (tr (m ((c : Thread nD τ).loc main_arg6))) :=
  (W2_of_ne m ρ c main_v17 (by decide)).trans (L1_v17 m ρ c)
theorem L2_v18 : W2 m ρ c (Proc.devRef .tc main_v18) = (tr (m ((c : Thread nD τ).loc main_arg7))) :=
  (W2_of_ne m ρ c main_v18 (by decide)).trans (L1_v18 m ρ c)
theorem L2_v19 : W2 m ρ c (Proc.devRef .tc main_v19) = (tr (m ((c : Thread nD τ).loc main_arg9))) :=
  (W2_of_ne m ρ c main_v19 (by decide)).trans (L1_v19 m ρ c)
theorem L2_v20 : W2 m ρ c (Proc.devRef .tc main_v20) = (tr (m ((c : Thread nD τ).loc main_arg10))) :=
  (W2_of_ne m ρ c main_v20 (by decide)).trans (L1_v20 m ρ c)
theorem L2_arg3 : W2 m ρ c (Proc.devRef .tc main_arg3) = (m ((c : Thread nD τ).loc main_arg3)) :=
  (W2_of_ne m ρ c main_arg3 (by decide)).trans (L1_arg3 m ρ c)
theorem L2_arg4 : W2 m ρ c (Proc.devRef .tc main_arg4) = (m ((c : Thread nD τ).loc main_arg4)) :=
  (W2_of_ne m ρ c main_arg4 (by decide)).trans (L1_arg4 m ρ c)
theorem L2_arg5 : W2 m ρ c (Proc.devRef .tc main_arg5) = (m ((c : Thread nD τ).loc main_arg5)) :=
  (W2_of_ne m ρ c main_arg5 (by decide)).trans (L1_arg5 m ρ c)
theorem L2_arg8 : W2 m ρ c (Proc.devRef .tc main_arg8) = (m ((c : Thread nD τ).loc main_arg8)) :=
  (W2_of_ne m ρ c main_arg8 (by decide)).trans (L1_arg8 m ρ c)
theorem L2_arg11 : W2 m ρ c (Proc.devRef .tc main_arg11) = (m ((c : Thread nD τ).loc main_arg11)) :=
  (W2_of_ne m ρ c main_arg11 (by decide)).trans (L1_arg11 m ρ c)
/-- The aggregation along the edges of layer 1. -/
theorem L3_v54 : W3 m ρ c (Proc.devRef .tc main_v54) = (agg (mm (m := 50000) (k := 128) (n := 128) (φ₁ := .f32) (φ₂ := .f32) (m ((c : Thread nD τ).loc main_arg0)) (m ((c : Thread nD τ).loc main_arg2))) (srcOf (m ((c : Thread nD τ).loc main_arg1))) (dstOf (m ((c : Thread nD τ).loc main_arg1))) (dinv (dstOf (m ((c : Thread nD τ).loc main_arg1))))) :=
  (Host.ops1_v54 (W2 m ρ c)).trans (by rw [L2_v21 m ρ c, L2_v1 m ρ c, L2_v3 m ρ c, L2_v15 m ρ c])
/-- The aggregation against the edges of layer 1. -/
theorem L3_v87 : W3 m ρ c (Proc.devRef .tc main_v87) = (agg (mm (m := 50000) (k := 128) (n := 128) (φ₁ := .f32) (φ₂ := .f32) (m ((c : Thread nD τ).loc main_arg0)) (m ((c : Thread nD τ).loc main_arg2))) (dstOf (m ((c : Thread nD τ).loc main_arg1))) (srcOf (m ((c : Thread nD τ).loc main_arg1))) (dinv (srcOf (m ((c : Thread nD τ).loc main_arg1))))) :=
  (Host.ops1_v87 (W2 m ρ c)).trans (by rw [L2_v21 m ρ c, L2_v1 m ρ c, L2_v3 m ρ c, L2_v16 m ρ c])
theorem L3_v88 : W3 m ρ c (Proc.devRef .tc main_v88) = (row (m ((c : Thread nD τ).loc main_arg3))) :=
  (Host.ops1_v88 (W2 m ρ c)).trans (by rw [L2_arg3 m ρ c])
theorem L3_v89 : W3 m ρ c (Proc.devRef .tc main_v89) = (row (m ((c : Thread nD τ).loc main_arg8))) :=
  (Host.ops1_v89 (W2 m ρ c)).trans (by rw [L2_arg8 m ρ c])
theorem L3_v1 : W3 m ρ c (Proc.devRef .tc main_v1) = (srcOf (m ((c : Thread nD τ).loc main_arg1))) :=
  (Host.keep1_v1 (W2 m ρ c)).trans (L2_v1 m ρ c)
theorem L3_v3 : W3 m ρ c (Proc.devRef .tc main_v3) = (dstOf (m ((c : Thread nD τ).loc main_arg1))) :=
  (Host.keep1_v3 (W2 m ρ c)).trans (L2_v3 m ρ c)
theorem L3_v15 : W3 m ρ c (Proc.devRef .tc main_v15) = (dinv (dstOf (m ((c : Thread nD τ).loc main_arg1)))) :=
  (Host.keep1_v15 (W2 m ρ c)).trans (L2_v15 m ρ c)
theorem L3_v16 : W3 m ρ c (Proc.devRef .tc main_v16) = (dinv (srcOf (m ((c : Thread nD τ).loc main_arg1)))) :=
  (Host.keep1_v16 (W2 m ρ c)).trans (L2_v16 m ρ c)
theorem L3_v17 : W3 m ρ c (Proc.devRef .tc main_v17) = (tr (m ((c : Thread nD τ).loc main_arg6))) :=
  (Host.keep1_v17 (W2 m ρ c)).trans (L2_v17 m ρ c)
theorem L3_v18 : W3 m ρ c (Proc.devRef .tc main_v18) = (tr (m ((c : Thread nD τ).loc main_arg7))) :=
  (Host.keep1_v18 (W2 m ρ c)).trans (L2_v18 m ρ c)
theorem L3_v19 : W3 m ρ c (Proc.devRef .tc main_v19) = (tr (m ((c : Thread nD τ).loc main_arg9))) :=
  (Host.keep1_v19 (W2 m ρ c)).trans (L2_v19 m ρ c)
theorem L3_v20 : W3 m ρ c (Proc.devRef .tc main_v20) = (tr (m ((c : Thread nD τ).loc main_arg10))) :=
  (Host.keep1_v20 (W2 m ρ c)).trans (L2_v20 m ρ c)
theorem L3_arg4 : W3 m ρ c (Proc.devRef .tc main_arg4) = (m ((c : Thread nD τ).loc main_arg4)) :=
  (Host.keep1_arg4 (W2 m ρ c)).trans (L2_arg4 m ρ c)
theorem L3_arg5 : W3 m ρ c (Proc.devRef .tc main_arg5) = (m ((c : Thread nD τ).loc main_arg5)) :=
  (Host.keep1_arg5 (W2 m ρ c)).trans (L2_arg5 m ρ c)
theorem L3_arg11 : W3 m ρ c (Proc.devRef .tc main_arg11) = (m ((c : Thread nD τ).loc main_arg11)) :=
  (Host.keep1_arg11 (W2 m ρ c)).trans (L2_arg11 m ρ c)
/-- Region 1 leaves layer 1's output in its output array. -/
theorem L4_v90 : W4 m ρ c (Proc.devRef .tc main_v90) = (layer (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg1))) :=
  (W4_arr m ρ c 6).trans ((Region1.final (V3 m ρ) c).trans (by
    rw [show V3 m ρ c main_v54 = _ from L3_v54 m ρ c, show V3 m ρ c main_v87 = _ from L3_v87 m ρ c,
      show V3 m ρ c main_v88 = _ from L3_v88 m ρ c, show V3 m ρ c main_v17 = _ from L3_v17 m ρ c,
      show V3 m ρ c main_v18 = _ from L3_v18 m ρ c, show V3 m ρ c main_v89 = _ from L3_v89 m ρ c]
    rfl))
theorem L4_v1 : W4 m ρ c (Proc.devRef .tc main_v1) = (srcOf (m ((c : Thread nD τ).loc main_arg1))) :=
  (W4_of_ne m ρ c main_v1 (by decide)).trans (L3_v1 m ρ c)
theorem L4_v3 : W4 m ρ c (Proc.devRef .tc main_v3) = (dstOf (m ((c : Thread nD τ).loc main_arg1))) :=
  (W4_of_ne m ρ c main_v3 (by decide)).trans (L3_v3 m ρ c)
theorem L4_v15 : W4 m ρ c (Proc.devRef .tc main_v15) = (dinv (dstOf (m ((c : Thread nD τ).loc main_arg1)))) :=
  (W4_of_ne m ρ c main_v15 (by decide)).trans (L3_v15 m ρ c)
theorem L4_v16 : W4 m ρ c (Proc.devRef .tc main_v16) = (dinv (srcOf (m ((c : Thread nD τ).loc main_arg1)))) :=
  (W4_of_ne m ρ c main_v16 (by decide)).trans (L3_v16 m ρ c)
theorem L4_v19 : W4 m ρ c (Proc.devRef .tc main_v19) = (tr (m ((c : Thread nD τ).loc main_arg9))) :=
  (W4_of_ne m ρ c main_v19 (by decide)).trans (L3_v19 m ρ c)
theorem L4_v20 : W4 m ρ c (Proc.devRef .tc main_v20) = (tr (m ((c : Thread nD τ).loc main_arg10))) :=
  (W4_of_ne m ρ c main_v20 (by decide)).trans (L3_v20 m ρ c)
theorem L4_arg4 : W4 m ρ c (Proc.devRef .tc main_arg4) = (m ((c : Thread nD τ).loc main_arg4)) :=
  (W4_of_ne m ρ c main_arg4 (by decide)).trans (L3_arg4 m ρ c)
theorem L4_arg5 : W4 m ρ c (Proc.devRef .tc main_arg5) = (m ((c : Thread nD τ).loc main_arg5)) :=
  (W4_of_ne m ρ c main_arg5 (by decide)).trans (L3_arg5 m ρ c)
theorem L4_arg11 : W4 m ρ c (Proc.devRef .tc main_arg11) = (m ((c : Thread nD τ).loc main_arg11)) :=
  (W4_of_ne m ρ c main_arg11 (by decide)).trans (L3_arg11 m ρ c)
/-- Region 2 leaves the second product in its output array. -/
theorem L5_v91 : W5 m ρ c (Proc.devRef .tc main_v91) = (mm (m := 50000) (k := 128) (n := 128) (φ₁ := .f32) (φ₂ := .f32) (layer (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg1))) (m ((c : Thread nD τ).loc main_arg4))) :=
  (W5_arr m ρ c 2).trans ((Region2.final (V4 m ρ) c).trans (by
    rw [show V4 m ρ c main_v90 = _ from L4_v90 m ρ c, show V4 m ρ c main_arg4 = _ from L4_arg4 m ρ c]))
theorem L5_v1 : W5 m ρ c (Proc.devRef .tc main_v1) = (srcOf (m ((c : Thread nD τ).loc main_arg1))) :=
  (W5_of_ne m ρ c main_v1 (by decide)).trans (L4_v1 m ρ c)
theorem L5_v3 : W5 m ρ c (Proc.devRef .tc main_v3) = (dstOf (m ((c : Thread nD τ).loc main_arg1))) :=
  (W5_of_ne m ρ c main_v3 (by decide)).trans (L4_v3 m ρ c)
theorem L5_v15 : W5 m ρ c (Proc.devRef .tc main_v15) = (dinv (dstOf (m ((c : Thread nD τ).loc main_arg1)))) :=
  (W5_of_ne m ρ c main_v15 (by decide)).trans (L4_v15 m ρ c)
theorem L5_v16 : W5 m ρ c (Proc.devRef .tc main_v16) = (dinv (srcOf (m ((c : Thread nD τ).loc main_arg1)))) :=
  (W5_of_ne m ρ c main_v16 (by decide)).trans (L4_v16 m ρ c)
theorem L5_v19 : W5 m ρ c (Proc.devRef .tc main_v19) = (tr (m ((c : Thread nD τ).loc main_arg9))) :=
  (W5_of_ne m ρ c main_v19 (by decide)).trans (L4_v19 m ρ c)
theorem L5_v20 : W5 m ρ c (Proc.devRef .tc main_v20) = (tr (m ((c : Thread nD τ).loc main_arg10))) :=
  (W5_of_ne m ρ c main_v20 (by decide)).trans (L4_v20 m ρ c)
theorem L5_arg5 : W5 m ρ c (Proc.devRef .tc main_arg5) = (m ((c : Thread nD τ).loc main_arg5)) :=
  (W5_of_ne m ρ c main_arg5 (by decide)).trans (L4_arg5 m ρ c)
theorem L5_arg11 : W5 m ρ c (Proc.devRef .tc main_arg11) = (m ((c : Thread nD τ).loc main_arg11)) :=
  (W5_of_ne m ρ c main_arg11 (by decide)).trans (L4_arg11 m ρ c)
/-- The aggregation along the edges of layer 2. -/
theorem L6_v124 : W6 m ρ c (Proc.devRef .tc main_v124) = (agg (mm (m := 50000) (k := 128) (n := 128) (φ₁ := .f32) (φ₂ := .f32) (layer (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg1))) (m ((c : Thread nD τ).loc main_arg4))) (srcOf (m ((c : Thread nD τ).loc main_arg1))) (dstOf (m ((c : Thread nD τ).loc main_arg1))) (dinv (dstOf (m ((c : Thread nD τ).loc main_arg1))))) :=
  (Host.ops3_v124 (W5 m ρ c)).trans (by rw [L5_v91 m ρ c, L5_v1 m ρ c, L5_v3 m ρ c, L5_v15 m ρ c])
/-- The aggregation against the edges of layer 2. -/
theorem L6_v157 : W6 m ρ c (Proc.devRef .tc main_v157) = (agg (mm (m := 50000) (k := 128) (n := 128) (φ₁ := .f32) (φ₂ := .f32) (layer (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg1))) (m ((c : Thread nD τ).loc main_arg4))) (dstOf (m ((c : Thread nD τ).loc main_arg1))) (srcOf (m ((c : Thread nD τ).loc main_arg1))) (dinv (srcOf (m ((c : Thread nD τ).loc main_arg1))))) :=
  (Host.ops3_v157 (W5 m ρ c)).trans (by rw [L5_v91 m ρ c, L5_v1 m ρ c, L5_v3 m ρ c, L5_v16 m ρ c])
theorem L6_v158 : W6 m ρ c (Proc.devRef .tc main_v158) = (row (m ((c : Thread nD τ).loc main_arg5))) :=
  (Host.ops3_v158 (W5 m ρ c)).trans (by rw [L5_arg5 m ρ c])
theorem L6_v159 : W6 m ρ c (Proc.devRef .tc main_v159) = (row (m ((c : Thread nD τ).loc main_arg11))) :=
  (Host.ops3_v159 (W5 m ρ c)).trans (by rw [L5_arg11 m ρ c])
theorem L6_v19 : W6 m ρ c (Proc.devRef .tc main_v19) = (tr (m ((c : Thread nD τ).loc main_arg9))) :=
  (Host.keep3_v19 (W5 m ρ c)).trans (L5_v19 m ρ c)
theorem L6_v20 : W6 m ρ c (Proc.devRef .tc main_v20) = (tr (m ((c : Thread nD τ).loc main_arg10))) :=
  (Host.keep3_v20 (W5 m ρ c)).trans (L5_v20 m ρ c)
/-- THE RESULT: region 3 leaves the network's output in the result array. -/
theorem L7_v160 : W7 m ρ c (Proc.devRef .tc main_v160) = (net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (W7_arr m ρ c 6).trans ((Region3.final (V6 m ρ) c).trans (by
    rw [show V6 m ρ c main_v124 = _ from L6_v124 m ρ c, show V6 m ρ c main_v157 = _ from L6_v157 m ρ c,
      show V6 m ρ c main_v158 = _ from L6_v158 m ρ c, show V6 m ρ c main_v19 = _ from L6_v19 m ρ c,
      show V6 m ρ c main_v20 = _ from L6_v20 m ρ c, show V6 m ρ c main_v159 = _ from L6_v159 m ρ c]
    rfl))

end Cert.Gcn.Kernel

end
-- ==== Proof.RefSpell.lean ====
/-
  The reference program's operations, grouped and named: the same network, in the host's spelling.

  The per-edge chain (edge ends, inverse square roots of degrees, aggregation) is spelt exactly as in the kernel
  program's host stretches.  The dense part differs in spelling only: a bias is broadcast from a vector in two steps, the
  rectifier compares with a broadcast scalar zero, the gate weights are transposed in place, the products are the host's
  dot_general, and the logistic function is written out as 1 / (1 + exp(−x)) over a broadcast scalar one.
-/
import proofs.«129891_j60722247631313_1_alg».proof.Proof.Gen.ReferenceIdeal
import Idealize.ShloMosaic.PureOps.Ideal

noncomputable section

namespace Cert.Gcn.Ref

open Idealize.ShloMosaic Cert.ReferenceIdeal Cert.ReferenceIdeal.Facts₀

abbrev RNodes := (⟨S50000x128, .f32⟩ : BufTy).Contents (Elt Ideal)
abbrev REdges := (⟨S2x800000, .i32⟩ : BufTy).Contents (Elt Ideal)
abbrev REnds := (⟨S800000, .i32⟩ : BufTy).Contents (Elt Ideal)
abbrev RPerNode := (⟨S50000, .f32⟩ : BufTy).Contents (Elt Ideal)
abbrev RMat := (⟨S128x128, .f32⟩ : BufTy).Contents (Elt Ideal)
abbrev RLanes := (⟨S128, .f32⟩ : BufTy).Contents (Elt Ideal)

/-- The sources of the edges: row 0 of the edge list. -/
def hSrc (e : REdges) : REnds :=
  shapeCast S800000 (extractStridedSlice S1x800000 ![0, 0] e slices_S2x800000_S1x800000_0_0) shapeCasts_S1x800000_S800000

/-- The targets of the edges: row 1 of the edge list. -/
def hDst (e : REdges) : REnds :=
  shapeCast S800000 (extractStridedSlice S1x800000 ![1, 0] e slices_S2x800000_S1x800000_1_0) shapeCasts_S1x800000_S800000

/-- Per node: one plus the number of edge ends `t` that name it, to the power −1/2. -/
def hDinv (t : REnds) : RPerNode :=
  Host.rsqrt (F := Ideal) (addf
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 t)
      (broadcastInDim S800000 ![] bcast_S_S800000 (constant (F := Ideal) S_ .f32 0x3F800000#32)))
    (broadcastInDim S50000 ![] bcast_S_S50000 (constant (F := Ideal) S_ .f32 0x3F800000#32)))

/-- A node number below zero counts from the end. -/
def hWrap (t : REnds) : REnds :=
  select (cmpi .slt t (broadcastInDim S800000 ![] bcast_S_S800000 (constantI S_ 32 0#32)))
    (addi t (broadcastInDim S800000 ![] bcast_S_S800000 (constantI S_ 32 50000#32))) t

/-- Aggregation along the edges from ends `a` to ends `b` with per-node factors `d`. -/
def hAgg (h : RNodes) (a b : REnds) (d : RPerNode) : RNodes :=
  addf
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 b)
      (mulf
        (Host.gather gather_S50000x128_S800000x1_S800000x128_1_0_n_n_0_1_1128 h
          (broadcastInDim S800000x1 ![0] bcast_S800000_S800000x1_0 (hWrap a)))
        (broadcastInDim S800000x128 ![0, 1] bcast_S800000x1_S800000x128_0_1
          (broadcastInDim S800000x1 ![0] bcast_S800000_S800000x1_0
            (mulf
              (Host.gather gather_S50000_S800000x1_S800000_n_0_n_n_0_1_1 d
                (broadcastInDim S800000x1 ![0] bcast_S800000_S800000x1_0 (hWrap a)))
              (Host.gather gather_S50000_S800000x1_S800000_n_0_n_n_0_1_1 d
                (broadcastInDim S800000x1 ![0] bcast_S800000_S800000x1_0 (hWrap b))))))))
    (mulf h
      (broadcastInDim S50000x128 ![0, 1] bcast_S50000x1_S50000x128_0_1
        (broadcastInDim S50000x1 ![0] bcast_S50000_S50000x1_0 (mulf d d))))

/-- A bias added to every row, then the rectifier. -/
def hAct (A : RNodes) (β : RLanes) : RNodes :=
  maximumf
    (addf A (broadcastInDim S50000x128 ![0, 1] bcast_S1x128_S50000x128_0_1 (broadcastInDim S1x128 ![1] bcast_S128_S1x128_1 β)))
    (broadcastInDim S50000x128 ![] bcast_S_S50000x128 (constant (F := Ideal) S_ .f32 0x00000000#32))

/-- The gate: the logistic function, written out, of o₁ · waᵀ + o₂ · wbᵀ + b. -/
def hGate (o1 o2 : RNodes) (wa wb : RMat) (b : RLanes) : RNodes :=
  Host.divf (F := Ideal) (broadcastInDim S50000x128 ![] bcast_S_S50000x128 (constant (F := Ideal) S_ .f32 0x3F800000#32))
    (addf (broadcastInDim S50000x128 ![] bcast_S_S50000x128 (constant (F := Ideal) S_ .f32 0x3F800000#32))
      (Host.exp (F := Ideal) (Host.negf (F := Ideal) (addf
        (addf
          (Host.dotGeneral (F := Ideal) (φ₁ := .f32) (φ₂ := .f32) dot_S50000x128_S128x128_S50000x128_1_0_0_1_n_n none o1
            (transpose S128x128 [1, 0] wa transposes_S128x128_S128x128_1_0))
          (Host.dotGeneral (F := Ideal) (φ₁ := .f32) (φ₂ := .f32) dot_S50000x128_S128x128_S50000x128_1_0_0_1_n_n none o2
            (transpose S128x128 [1, 0] wb transposes_S128x128_S128x128_1_0)))
        (broadcastInDim S50000x128 ![0, 1] bcast_S1x128_S50000x128_0_1 (broadcastInDim S1x128 ![1] bcast_S128_S1x128_1 b))))))

/-- The gate applied to two rectified arrays: g · o₁ + (1 − g) · o₂. -/
def hFuseO (o1 o2 : RNodes) (wa wb : RMat) (b : RLanes) : RNodes :=
  addf (mulf (hGate o1 o2 wa wb b) o1)
    (mulf (subf (broadcastInDim S50000x128 ![] bcast_S_S50000x128 (constant (F := Ideal) S_ .f32 0x3F800000#32))
      (hGate o1 o2 wa wb b)) o2)

/-- The gated fusion of two aggregated arrays. -/
def hFuse (A B : RNodes) (β : RLanes) (wa wb : RMat) (b : RLanes) : RNodes :=
  hFuseO (hAct A β) (hAct B β) wa wb b

/-- One convolution: product, aggregation from ends `s` to ends `d`, bias, rectifier. -/
def hConv (X : RNodes) (W : RMat) (β : RLanes) (s d : REnds) : RNodes :=
  hAct (hAgg (Host.dotGeneral (F := Ideal) (φ₁ := .f32) (φ₂ := .f32) dot_S50000x128_S128x128_S50000x128_1_0_0_1_n_n none X W) s d (hDinv d)) β

/-- One layer, from the edge ends `s` (sources) and `d` (targets). -/
def hLayer (X : RNodes) (W : RMat) (β : RLanes) (wa wb : RMat) (b : RLanes) (s d : REnds) : RNodes :=
  hFuse
    (hAgg (Host.dotGeneral (F := Ideal) (φ₁ := .f32) (φ₂ := .f32) dot_S50000x128_S128x128_S50000x128_1_0_0_1_n_n none X W) s d (hDinv d))
    (hAgg (Host.dotGeneral (F := Ideal) (φ₁ := .f32) (φ₂ := .f32) dot_S50000x128_S128x128_S50000x128_1_0_0_1_n_n none X W) d s (hDinv s))
    β wa wb b

end Cert.Gcn.Ref

end
-- ==== Proof.RefRead.lean ====
/-
  The reference program's operation list, read piece by piece.

  The 276 operations fall into seven consecutive pieces: the two rows of the edge list; then, for each of the two layers,
  the convolution along the edges, the convolution against them, and the gate with the fusion.  Each piece is read from ANY
  contents `W` it may start from: its one buffer that later pieces read holds the named function of the buffers the piece
  reads; and a buffer outside the piece's own result buffers keeps its contents through the piece.
-/
import proofs.«129891_j60722247631313_1_alg».proof.Proof.RefRun
import proofs.«129891_j60722247631313_1_alg».proof.Proof.RefSpell
import Idealize.ShloMosaic.Lib.StableHlo.Run

set_option maxRecDepth 16384

noncomputable section

namespace Cert.Gcn.RefRead

open Idealize.ShloMosaic Idealize.ShloMosaic.TcCoe Idealize.ShloMosaic.StableHlo Idealize.SL.Sem
open Cert.ReferenceIdeal Cert.ReferenceIdeal.Facts₀ Cert.ReferenceIdeal.ValueP Cert.Gcn.Ref

variable (W : Valuation τ sig (Elt Ideal))

/-! ## The rectifier is an outlined function: its buffers are typed references, and contents pass to and from them unchanged -/

theorem toBuf_v48 (x : (⟨S50000x128, .f32⟩ : BufTy).Contents (Elt Ideal)) : (TRef.of (T := ⟨S50000x128, .f32⟩) main_v48).toBuf x = x := cast_eq _ x
theorem ofBuf_v47 (x : main_v47.ty.Contents (Elt Ideal)) : (TRef.of (T := ⟨S50000x128, .f32⟩) main_v47).ofBuf x = x := cast_eq _ x
theorem toBuf_call0_v0 (x : (⟨S50000x128, .f32⟩ : BufTy).Contents (Elt Ideal)) : (TRef.of (T := ⟨S50000x128, .f32⟩) main_call0_v0).toBuf x = x := cast_eq _ x
theorem ofBuf_call0_v0 (x : main_call0_v0.ty.Contents (Elt Ideal)) : (TRef.of (T := ⟨S50000x128, .f32⟩) main_call0_v0).ofBuf x = x := cast_eq _ x
theorem toBuf_call0_cst (x : (⟨S_, .f32⟩ : BufTy).Contents (Elt Ideal)) : (TRef.of (T := ⟨S_, .f32⟩) main_call0_cst).toBuf x = x := cast_eq _ x
theorem ofBuf_call0_cst (x : main_call0_cst.ty.Contents (Elt Ideal)) : (TRef.of (T := ⟨S_, .f32⟩) main_call0_cst).ofBuf x = x := cast_eq _ x
theorem toBuf_v93 (x : (⟨S50000x128, .f32⟩ : BufTy).Contents (Elt Ideal)) : (TRef.of (T := ⟨S50000x128, .f32⟩) main_v93).toBuf x = x := cast_eq _ x
theorem ofBuf_v92 (x : main_v92.ty.Contents (Elt Ideal)) : (TRef.of (T := ⟨S50000x128, .f32⟩) main_v92).ofBuf x = x := cast_eq _ x
theorem toBuf_call1_v0 (x : (⟨S50000x128, .f32⟩ : BufTy).Contents (Elt Ideal)) : (TRef.of (T := ⟨S50000x128, .f32⟩) main_call1_v0).toBuf x = x := cast_eq _ x
theorem ofBuf_call1_v0 (x : main_call1_v0.ty.Contents (Elt Ideal)) : (TRef.of (T := ⟨S50000x128, .f32⟩) main_call1_v0).ofBuf x = x := cast_eq _ x
theorem toBuf_call1_cst (x : (⟨S_, .f32⟩ : BufTy).Contents (Elt Ideal)) : (TRef.of (T := ⟨S_, .f32⟩) main_call1_cst).toBuf x = x := cast_eq _ x
theorem ofBuf_call1_cst (x : main_call1_cst.ty.Contents (Elt Ideal)) : (TRef.of (T := ⟨S_, .f32⟩) main_call1_cst).ofBuf x = x := cast_eq _ x
theorem toBuf_v157 (x : (⟨S50000x128, .f32⟩ : BufTy).Contents (Elt Ideal)) : (TRef.of (T := ⟨S50000x128, .f32⟩) main_v157).toBuf x = x := cast_eq _ x
theorem ofBuf_v156 (x : main_v156.ty.Contents (Elt Ideal)) : (TRef.of (T := ⟨S50000x128, .f32⟩) main_v156).ofBuf x = x := cast_eq _ x
theorem toBuf_call2_v0 (x : (⟨S50000x128, .f32⟩ : BufTy).Contents (Elt Ideal)) : (TRef.of (T := ⟨S50000x128, .f32⟩) main_call2_v0).toBuf x = x := cast_eq _ x
theorem ofBuf_call2_v0 (x : main_call2_v0.ty.Contents (Elt Ideal)) : (TRef.of (T := ⟨S50000x128, .f32⟩) main_call2_v0).ofBuf x = x := cast_eq _ x
theorem toBuf_call2_cst (x : (⟨S_, .f32⟩ : BufTy).Contents (Elt Ideal)) : (TRef.of (T := ⟨S_, .f32⟩) main_call2_cst).toBuf x = x := cast_eq _ x
theorem ofBuf_call2_cst (x : main_call2_cst.ty.Contents (Elt Ideal)) : (TRef.of (T := ⟨S_, .f32⟩) main_call2_cst).ofBuf x = x := cast_eq _ x
theorem toBuf_v202 (x : (⟨S50000x128, .f32⟩ : BufTy).Contents (Elt Ideal)) : (TRef.of (T := ⟨S50000x128, .f32⟩) main_v202).toBuf x = x := cast_eq _ x
theorem ofBuf_v201 (x : main_v201.ty.Contents (Elt Ideal)) : (TRef.of (T := ⟨S50000x128, .f32⟩) main_v201).ofBuf x = x := cast_eq _ x
theorem toBuf_call3_v0 (x : (⟨S50000x128, .f32⟩ : BufTy).Contents (Elt Ideal)) : (TRef.of (T := ⟨S50000x128, .f32⟩) main_call3_v0).toBuf x = x := cast_eq _ x
theorem ofBuf_call3_v0 (x : main_call3_v0.ty.Contents (Elt Ideal)) : (TRef.of (T := ⟨S50000x128, .f32⟩) main_call3_v0).ofBuf x = x := cast_eq _ x
theorem toBuf_call3_cst (x : (⟨S_, .f32⟩ : BufTy).Contents (Elt Ideal)) : (TRef.of (T := ⟨S_, .f32⟩) main_call3_cst).toBuf x = x := cast_eq _ x
theorem ofBuf_call3_cst (x : main_call3_cst.ty.Contents (Elt Ideal)) : (TRef.of (T := ⟨S_, .f32⟩) main_call3_cst).ofBuf x = x := cast_eq _ x

/-! ## What each piece computes -/

theorem r0_v1 : after (ops0 (F := Ideal)) W (Proc.devRef .tc main_v1) = hSrc (W (Proc.devRef .tc main_arg1)) := by
  after_results; rfl
theorem r0_v3 : after (ops0 (F := Ideal)) W (Proc.devRef .tc main_v3) = hDst (W (Proc.devRef .tc main_arg1)) := by
  after_results; rfl
set_option maxHeartbeats 4000000 in
/-- Layer 1, along the edges. -/
theorem r1 : after (ops1 (F := Ideal)) W (Proc.devRef .tc main_v48)
    = hConv (W (Proc.devRef .tc main_arg0)) (W (Proc.devRef .tc main_arg2)) (W (Proc.devRef .tc main_arg3)) (W (Proc.devRef .tc main_v1)) (W (Proc.devRef .tc main_v3)) := by
  after_results_simp
  simp only [toBuf_v48, ofBuf_v47, toBuf_call0_v0, ofBuf_call0_v0, toBuf_call0_cst, ofBuf_call0_cst]
  unfold hConv hAct hAgg hWrap hDinv
  with_reducible rfl
set_option maxHeartbeats 4000000 in
/-- Layer 1, against the edges. -/
theorem r2 : after (ops2 (F := Ideal)) W (Proc.devRef .tc main_v93)
    = hConv (W (Proc.devRef .tc main_arg0)) (W (Proc.devRef .tc main_arg2)) (W (Proc.devRef .tc main_arg3)) (W (Proc.devRef .tc main_v3)) (W (Proc.devRef .tc main_v1)) := by
  after_results_simp
  simp only [toBuf_v93, ofBuf_v92, toBuf_call1_v0, ofBuf_call1_v0, toBuf_call1_cst, ofBuf_call1_cst]
  unfold hConv hAct hAgg hWrap hDinv
  with_reducible rfl
set_option maxHeartbeats 4000000 in
/-- Layer 1's gate and fusion. -/
theorem r3 : after (ops3 (F := Ideal)) W (Proc.devRef .tc main_v112)
    = hFuseO (W (Proc.devRef .tc main_v48)) (W (Proc.devRef .tc main_v93)) (W (Proc.devRef .tc main_arg6)) (W (Proc.devRef .tc main_arg7)) (W (Proc.devRef .tc main_arg8)) := by
  after_results_simp
  unfold hFuseO hGate
  with_reducible rfl
set_option maxHeartbeats 4000000 in
/-- Layer 2, along the edges. -/
theorem r4 : after (ops4 (F := Ideal)) W (Proc.devRef .tc main_v157)
    = hConv (W (Proc.devRef .tc main_v112)) (W (Proc.devRef .tc main_arg4)) (W (Proc.devRef .tc main_arg5)) (W (Proc.devRef .tc main_v1)) (W (Proc.devRef .tc main_v3)) := by
  after_results_simp
  simp only [toBuf_v157, ofBuf_v156, toBuf_call2_v0, ofBuf_call2_v0, toBuf_call2_cst, ofBuf_call2_cst]
  unfold hConv hAct hAgg hWrap hDinv
  with_reducible rfl
set_option maxHeartbeats 4000000 in
/-- Layer 2, against the edges. -/
theorem r5 : after (ops5 (F := Ideal)) W (Proc.devRef .tc main_v202)
    = hConv (W (Proc.devRef .tc main_v112)) (W (Proc.devRef .tc main_arg4)) (W (Proc.devRef .tc main_arg5)) (W (Proc.devRef .tc main_v3)) (W (Proc.devRef .tc main_v1)) := by
  after_results_simp
  simp only [toBuf_v202, ofBuf_v201, toBuf_call3_v0, ofBuf_call3_v0, toBuf_call3_cst, ofBuf_call3_cst]
  unfold hConv hAct hAgg hWrap hDinv
  with_reducible rfl
set_option maxHeartbeats 4000000 in
/-- Layer 2's gate and fusion. -/
theorem r6 : after (ops6 (F := Ideal)) W (Proc.devRef .tc main_v221)
    = hFuseO (W (Proc.devRef .tc main_v157)) (W (Proc.devRef .tc main_v202)) (W (Proc.devRef .tc main_arg9)) (W (Proc.devRef .tc main_arg10)) (W (Proc.devRef .tc main_arg11)) := by
  after_results_simp
  unfold hFuseO hGate
  with_reducible rfl

/-! ## What each piece writes, and that it writes nothing else -/

/-- Every operation of a literal list writes one of the listed result buffers. -/
local macro "writes_in " l:ident : tactic => `(tactic| (
  simp only [$l:ident, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset, List.map_cons, List.map_nil]
  repeat' apply And.intro
  all_goals simp only [List.mem_cons, List.mem_nil_iff, true_or, or_true, or_false]))

/-- The result buffers of piece 0. -/
abbrev wr0 : List (Ref sig .tc) := [main_v0, main_v1, main_v2, main_v3]
set_option maxHeartbeats 4000000 in
theorem written0 : (ops0 (F := Ideal)).Forall fun op => op.writes ⊆ ((wr0).map (Proc.devRef (τ := τ) .tc)).toFinset := by
  writes_in ops0
/-- A buffer outside piece 0's result buffers keeps its contents through the piece. -/
theorem keep0 (r : Ref sig .tc) (hr : r ∉ wr0) : after (ops0 (F := Ideal)) W (Proc.devRef .tc r) = W (Proc.devRef .tc r) :=
  after_of_writes_sub _ W written0 hr

/-- The result buffers of piece 1. -/
abbrev wr1 : List (Ref sig .tc) := [main_v4, main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47, main_call0_cst, main_call0_v0, main_v48]
set_option maxHeartbeats 4000000 in
theorem written1 : (ops1 (F := Ideal)).Forall fun op => op.writes ⊆ ((wr1).map (Proc.devRef (τ := τ) .tc)).toFinset := by
  writes_in ops1
/-- A buffer outside piece 1's result buffers keeps its contents through the piece. -/
theorem keep1 (r : Ref sig .tc) (hr : r ∉ wr1) : after (ops1 (F := Ideal)) W (Proc.devRef .tc r) = W (Proc.devRef .tc r) :=
  after_of_writes_sub _ W written1 hr

/-- The result buffers of piece 2. -/
abbrev wr2 : List (Ref sig .tc) := [main_v49, main_cst_8, main_v50, main_cst_9, main_v51, main_v52, main_v53, main_cst_10, main_v54, main_v55, main_v56, main_c_11, main_v57, main_v58, main_c_12, main_v59, main_v60, main_v61, main_v62, main_v63, main_c_13, main_v64, main_v65, main_c_14, main_v66, main_v67, main_v68, main_v69, main_v70, main_v71, main_c_15, main_v72, main_v73, main_c_16, main_v74, main_v75, main_v76, main_v77, main_v78, main_v79, main_v80, main_v81, main_cst_17, main_v82, main_v83, main_v84, main_v85, main_v86, main_v87, main_v88, main_v89, main_v90, main_v91, main_v92, main_call1_cst, main_call1_v0, main_v93]
set_option maxHeartbeats 4000000 in
theorem written2 : (ops2 (F := Ideal)).Forall fun op => op.writes ⊆ ((wr2).map (Proc.devRef (τ := τ) .tc)).toFinset := by
  writes_in ops2
/-- A buffer outside piece 2's result buffers keeps its contents through the piece. -/
theorem keep2 (r : Ref sig .tc) (hr : r ∉ wr2) : after (ops2 (F := Ideal)) W (Proc.devRef .tc r) = W (Proc.devRef .tc r) :=
  after_of_writes_sub _ W written2 hr

/-- The result buffers of piece 3. -/
abbrev wr3 : List (Ref sig .tc) := [main_v94, main_v95, main_v96, main_v97, main_v98, main_v99, main_v100, main_v101, main_v102, main_v103, main_cst_18, main_v104, main_v105, main_cst_19, main_v106, main_v107, main_v108, main_cst_20, main_v109, main_v110, main_v111, main_v112]
set_option maxHeartbeats 4000000 in
theorem written3 : (ops3 (F := Ideal)).Forall fun op => op.writes ⊆ ((wr3).map (Proc.devRef (τ := τ) .tc)).toFinset := by
  writes_in ops3
/-- A buffer outside piece 3's result buffers keeps its contents through the piece. -/
theorem keep3 (r : Ref sig .tc) (hr : r ∉ wr3) : after (ops3 (F := Ideal)) W (Proc.devRef .tc r) = W (Proc.devRef .tc r) :=
  after_of_writes_sub _ W written3 hr

/-- The result buffers of piece 4. -/
abbrev wr4 : List (Ref sig .tc) := [main_v113, main_cst_21, main_v114, main_cst_22, main_v115, main_v116, main_v117, main_cst_23, main_v118, main_v119, main_v120, main_c_24, main_v121, main_v122, main_c_25, main_v123, main_v124, main_v125, main_v126, main_v127, main_c_26, main_v128, main_v129, main_c_27, main_v130, main_v131, main_v132, main_v133, main_v134, main_v135, main_c_28, main_v136, main_v137, main_c_29, main_v138, main_v139, main_v140, main_v141, main_v142, main_v143, main_v144, main_v145, main_cst_30, main_v146, main_v147, main_v148, main_v149, main_v150, main_v151, main_v152, main_v153, main_v154, main_v155, main_v156, main_call2_cst, main_call2_v0, main_v157]
set_option maxHeartbeats 4000000 in
theorem written4 : (ops4 (F := Ideal)).Forall fun op => op.writes ⊆ ((wr4).map (Proc.devRef (τ := τ) .tc)).toFinset := by
  writes_in ops4
/-- A buffer outside piece 4's result buffers keeps its contents through the piece. -/
theorem keep4 (r : Ref sig .tc) (hr : r ∉ wr4) : after (ops4 (F := Ideal)) W (Proc.devRef .tc r) = W (Proc.devRef .tc r) :=
  after_of_writes_sub _ W written4 hr

/-- The result buffers of piece 5. -/
abbrev wr5 : List (Ref sig .tc) := [main_v158, main_cst_31, main_v159, main_cst_32, main_v160, main_v161, main_v162, main_cst_33, main_v163, main_v164, main_v165, main_c_34, main_v166, main_v167, main_c_35, main_v168, main_v169, main_v170, main_v171, main_v172, main_c_36, main_v173, main_v174, main_c_37, main_v175, main_v176, main_v177, main_v178, main_v179, main_v180, main_c_38, main_v181, main_v182, main_c_39, main_v183, main_v184, main_v185, main_v186, main_v187, main_v188, main_v189, main_v190, main_cst_40, main_v191, main_v192, main_v193, main_v194, main_v195, main_v196, main_v197, main_v198, main_v199, main_v200, main_v201, main_call3_cst, main_call3_v0, main_v202]
set_option maxHeartbeats 4000000 in
theorem written5 : (ops5 (F := Ideal)).Forall fun op => op.writes ⊆ ((wr5).map (Proc.devRef (τ := τ) .tc)).toFinset := by
  writes_in ops5
/-- A buffer outside piece 5's result buffers keeps its contents through the piece. -/
theorem keep5 (r : Ref sig .tc) (hr : r ∉ wr5) : after (ops5 (F := Ideal)) W (Proc.devRef .tc r) = W (Proc.devRef .tc r) :=
  after_of_writes_sub _ W written5 hr

/-- The result buffers of piece 6. -/
abbrev wr6 : List (Ref sig .tc) := [main_v203, main_v204, main_v205, main_v206, main_v207, main_v208, main_v209, main_v210, main_v211, main_v212, main_cst_41, main_v213, main_v214, main_cst_42, main_v215, main_v216, main_v217, main_cst_43, main_v218, main_v219, main_v220, main_v221]
set_option maxHeartbeats 4000000 in
theorem written6 : (ops6 (F := Ideal)).Forall fun op => op.writes ⊆ ((wr6).map (Proc.devRef (τ := τ) .tc)).toFinset := by
  writes_in ops6
/-- A buffer outside piece 6's result buffers keeps its contents through the piece. -/
theorem keep6 (r : Ref sig .tc) (hr : r ∉ wr6) : after (ops6 (F := Ideal)) W (Proc.devRef .tc r) = W (Proc.devRef .tc r) :=
  after_of_writes_sub _ W written6 hr

end Cert.Gcn.RefRead

end
-- ==== Proof.HostFuse.lean ====
/-
  The reference program's spelling of a layer is the layer.

  The per-edge chain is letter for letter the chain the specification names.  The dense part is read entry by entry:
  a bias broadcast from a vector in two steps is the bias row repeated; the host's product is the sum over the contracted
  coordinate; and 1 / (1 + exp(−x)), with the float word of 1.0 for the ones, is the logistic function, because that
  word is the real number 1.
-/
import proofs.«129891_j60722247631313_1_alg».proof.Proof.Spec
import proofs.«129891_j60722247631313_1_alg».proof.Proof.RefSpell
import Idealize.ShloMosaic.Lib.Pipeline.Value
import Idealize.ShloMosaic.Lib.ValueLayout
import Idealize.ShloMosaic.Lib.StackMember

noncomputable section

namespace Cert.Gcn.Ref

open Idealize.ShloMosaic Idealize.ShloMosaic.ValueIdx Cert.ReferenceIdeal Cert.ReferenceIdeal.Facts₀ Cert.LibDenseProduct

/-- The float word of 1.0 is the real number 1. -/
theorem ofBits_one : Ideal.ofBits .f32 0x3F800000#32 = 1 := by
  simp [Ideal.ofBits, Ideal.ieee, -EReal.coe_mul]; norm_num

/-! ## The per-edge chain is the same chain -/

theorem hSrc_eq (e : REdges) : hSrc e = srcOf e := rfl
theorem hDst_eq (e : REdges) : hDst e = dstOf e := rfl
theorem hDinv_eq (t : REnds) : hDinv t = dinv t := rfl
theorem hAgg_eq (h : RNodes) (a b : REnds) (d : RPerNode) : hAgg h a b d = agg h a b d := rfl

/-! ## The dense part, entry by entry -/

/-- The host's product is the dense product. -/
theorem hdot_eq (X : RNodes) (W : RMat) :
    Host.dotGeneral (F := Ideal) (φ₁ := .f32) (φ₂ := .f32) dot_S50000x128_S128x128_S50000x128_1_0_0_1_n_n none X W
      = mm (m := 50000) (k := 128) (n := 128) (φ₁ := .f32) (φ₂ := .f32) X W :=
  dotGeneral_plain_eq (m := 50000) (k := 128) (n := 128) (φ₁ := .f32) (φ₂ := .f32) none X W

/-- Entry (p, q) of the host's product. -/
theorem hdot_apply (O : RNodes) (w : RMat) (p : Fin 50000) (q : Fin 128) :
    Host.dotGeneral (F := Ideal) (φ₁ := .f32) (φ₂ := .f32) dot_S50000x128_S128x128_S50000x128_1_0_0_1_n_n none O w (ix2 p q)
      = ∑ c : Fin 128, O (ix2 p c) * w (ix2 c q) :=
  StackMember.dotGeneral_plain_apply (m := 50000) (k := 128) (n := 128) (φ₁ := .f32) (φ₂ := .f32) none O w p q

/-- A bias laid out as a row, read at its lane. -/
theorem row_apply (v : RLanes) (q : Fin 128) : row v (ix2 (0 : Fin 1) q) = v (ix1 q) :=
  shapeCast_a_1a_apply (a := 128) v _ 0 q

/-- A bias broadcast to one row and then down the rows reads, at (p, q), the bias at lane q. -/
theorem bias_apply (v : RLanes) (p : Fin 50000) (q : Fin 128) :
    broadcastInDim S50000x128 ![0, 1] bcast_S1x128_S50000x128_0_1 (broadcastInDim S1x128 ![1] bcast_S128_S1x128_1 v) (ix2 p q)
      = row v (ix2 (0 : Fin 1) q) := by
  rw [row_apply]
  refine (broadcastInDim_apply ![0, 1] bcast_S1x128_S50000x128_0_1 _ (ix2 p q) (ix2 (0 : Fin 1) q) (fun a => ?_)).trans
    (broadcastInDim_apply ![1] bcast_S128_S1x128_1 v (ix2 (0 : Fin 1) q) (ix1 q) (fun a => ?_))
  · match a with
    | ⟨0, _⟩ => rfl
    | ⟨1, _⟩ => rfl
  · match a with
    | ⟨0, _⟩ => rfl

/-- Entry (p, c) of the rectified, biased array. -/
theorem hAct_apply (A : RNodes) (β : RLanes) (p : Fin 50000) (c : Fin 128) :
    hAct A β (ix2 p c) = max (A (ix2 p c) + row β (ix2 (0 : Fin 1) c)) zeroW := by
  show max (A (ix2 p c) + broadcastInDim S50000x128 ![0, 1] bcast_S1x128_S50000x128_0_1
      (broadcastInDim S1x128 ![1] bcast_S128_S1x128_1 β) (ix2 p c)) _ = _
  rw [bias_apply]
  rfl

/-- Entry (p, q) of the host's fusion is the specification's. -/
theorem hFuse_apply (A B : RNodes) (β : RLanes) (wa wb : RMat) (b : RLanes) (p : Fin 50000) (q : Fin 128) :
    hFuse A B β wa wb b (ix2 p q) = fuseAt (n := 50000) A B (row β) (tr wa) (tr wb) (row b) p q := by
  have hone : (oneW : EReal) = 1 := ofBits_one
  show Ideal.div oneW (oneW + Ideal.exp (-(
          Host.dotGeneral (F := Ideal) (φ₁ := .f32) (φ₂ := .f32) dot_S50000x128_S128x128_S50000x128_1_0_0_1_n_n none (hAct A β)
              (transpose S128x128 [1, 0] wa transposes_S128x128_S128x128_1_0) (ix2 p q)
        + Host.dotGeneral (F := Ideal) (φ₁ := .f32) (φ₂ := .f32) dot_S50000x128_S128x128_S50000x128_1_0_0_1_n_n none (hAct B β)
              (transpose S128x128 [1, 0] wb transposes_S128x128_S128x128_1_0) (ix2 p q)
        + broadcastInDim S50000x128 ![0, 1] bcast_S1x128_S50000x128_0_1 (broadcastInDim S1x128 ![1] bcast_S128_S1x128_1 b) (ix2 p q))))
        * hAct A β (ix2 p q)
      + (oneW - Ideal.div oneW (oneW + Ideal.exp (-(
          Host.dotGeneral (F := Ideal) (φ₁ := .f32) (φ₂ := .f32) dot_S50000x128_S128x128_S50000x128_1_0_0_1_n_n none (hAct A β)
              (transpose S128x128 [1, 0] wa transposes_S128x128_S128x128_1_0) (ix2 p q)
        + Host.dotGeneral (F := Ideal) (φ₁ := .f32) (φ₂ := .f32) dot_S50000x128_S128x128_S50000x128_1_0_0_1_n_n none (hAct B β)
              (transpose S128x128 [1, 0] wb transposes_S128x128_S128x128_1_0) (ix2 p q)
        + broadcastInDim S50000x128 ![0, 1] bcast_S1x128_S50000x128_0_1 (broadcastInDim S1x128 ![1] bcast_S128_S1x128_1 b) (ix2 p q)))))
        * hAct B β (ix2 p q) = _
  rw [hdot_apply, hdot_apply, bias_apply]
  simp only [hAct_apply]
  unfold fuseAt Ideal.logistic
  rw [hone]
  rfl

/-- The host's fusion is the specification's, as arrays. -/
theorem hFuse_eq (A B : RNodes) (β : RLanes) (wa wb : RMat) (b : RLanes) :
    hFuse A B β wa wb b = fuse (n := 50000) A B (row β) (tr wa) (tr wb) (row b) := by
  funext i
  obtain ⟨p, q, rfl⟩ : ∃ (p : Fin 50000) (q : Fin 128), i = ix2 p q := ⟨i 0, i 1, eq_ix2 i⟩
  exact hFuse_apply A B β wa wb b p q

/-- The host's layer, from the two rows of the edge list, is the layer. -/
theorem hLayer_eq (X : RNodes) (W : RMat) (β : RLanes) (wa wb : RMat) (b : RLanes) (e : REdges) :
    hLayer X W β wa wb b (hSrc e) (hDst e) = layer X W β wa wb b e := by
  unfold hLayer layer
  rw [hFuse_eq]
  simp only [hdot_eq, hAgg_eq, hDinv_eq, hSrc_eq, hDst_eq]

end Cert.Gcn.Ref

end
-- ==== Proof.RefValue.lean ====
/-
  The reference program's result, as a function of the twelve arguments, and its run.

  The operation list is its seven pieces run one after another.  Within a layer the gate reads the two convolutions'
  outputs, which read the layer's input, weights and the edge ends; a piece writes only its own result buffers, so every
  buffer a later piece reads is carried unchanged to it.  Both layers are the host's spelling of a layer, which is the
  layer; the result buffer ends holding the two-layer network of the arguments, and no argument changes.
-/
import proofs.«129891_j60722247631313_1_alg».proof.Proof.RefRead
import proofs.«129891_j60722247631313_1_alg».proof.Proof.HostFuse

set_option maxRecDepth 16384

noncomputable section

namespace Cert.Gcn.RefValue

open Idealize.ShloMosaic Idealize.ShloMosaic.TcCoe Idealize.ShloMosaic.StableHlo Idealize.SL.Sem
open Cert.ReferenceIdeal Cert.ReferenceIdeal.Facts₀ Cert.ReferenceIdeal.ValueP Cert.Gcn.Ref Cert.Gcn.RefRead

/-- Operations run one list after the other are their concatenation run as one. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

set_option maxRecDepth 65536 in
/-- The operation list is its seven pieces in order. -/
theorem ops_split : ops (F := Ideal) = ops0 ++ (ops1 ++ (ops2 ++ (ops3 ++ (ops4 ++ (ops5 ++ ops6))))) := rfl

/-- So the contents after all the operations are the pieces' folds, nested. -/
theorem after_ops (V : Valuation τ sig (Elt Ideal)) :
    after (ops (F := Ideal)) V
      = after ops6 (after ops5 (after ops4 (after ops3 (after ops2 (after ops1 (after ops0 V)))))) := by
  rw [ops_split]
  simp only [after_append]

/-- The first layer's three pieces, from any contents: the layer of the input, weights, biases and edge ends found. -/
theorem layerA (W : Valuation τ sig (Elt Ideal)) :
    after (ops3 (F := Ideal)) (after ops2 (after ops1 W)) (Proc.devRef .tc main_v112)
      = hLayer (W (Proc.devRef .tc main_arg0)) (W (Proc.devRef .tc main_arg2)) (W (Proc.devRef .tc main_arg3)) (W (Proc.devRef .tc main_arg6)) (W (Proc.devRef .tc main_arg7)) (W (Proc.devRef .tc main_arg8))
          (W (Proc.devRef .tc main_v1)) (W (Proc.devRef .tc main_v3)) := by
  rw [r3, r2 (after ops1 W)]
  rw [keep2 (after ops1 W) main_v48 (by decide), keep2 (after ops1 W) main_arg6 (by decide),
    keep2 (after ops1 W) main_arg7 (by decide), keep2 (after ops1 W) main_arg8 (by decide)]
  rw [r1 W]
  rw [keep1 W main_arg0 (by decide), keep1 W main_arg2 (by decide), keep1 W main_arg3 (by decide),
    keep1 W main_v1 (by decide), keep1 W main_v3 (by decide), keep1 W main_arg6 (by decide),
    keep1 W main_arg7 (by decide), keep1 W main_arg8 (by decide)]
  rfl

/-- The second layer's three pieces, from any contents. -/
theorem layerB (W : Valuation τ sig (Elt Ideal)) :
    after (ops6 (F := Ideal)) (after ops5 (after ops4 W)) (Proc.devRef .tc main_v221)
      = hLayer (W (Proc.devRef .tc main_v112)) (W (Proc.devRef .tc main_arg4)) (W (Proc.devRef .tc main_arg5)) (W (Proc.devRef .tc main_arg9)) (W (Proc.devRef .tc main_arg10)) (W (Proc.devRef .tc main_arg11))
          (W (Proc.devRef .tc main_v1)) (W (Proc.devRef .tc main_v3)) := by
  rw [r6, r5 (after ops4 W)]
  rw [keep5 (after ops4 W) main_v157 (by decide), keep5 (after ops4 W) main_arg9 (by decide),
    keep5 (after ops4 W) main_arg10 (by decide), keep5 (after ops4 W) main_arg11 (by decide)]
  rw [r4 W]
  rw [keep4 W main_v112 (by decide), keep4 W main_arg4 (by decide), keep4 W main_arg5 (by decide),
    keep4 W main_v1 (by decide), keep4 W main_v3 (by decide), keep4 W main_arg9 (by decide),
    keep4 W main_arg10 (by decide), keep4 W main_arg11 (by decide)]
  rfl

/-- A buffer none of the first layer's pieces writes is carried through them. -/
theorem carryA (W : Valuation τ sig (Elt Ideal)) (r : Ref sig .tc) (h1 : r ∉ wr1) (h2 : r ∉ wr2) (h3 : r ∉ wr3) :
    after (ops3 (F := Ideal)) (after ops2 (after ops1 W)) (Proc.devRef .tc r) = W (Proc.devRef .tc r) :=
  (keep3 _ r h3).trans ((keep2 _ r h2).trans (keep1 W r h1))

/-- A buffer no piece writes ends as it started. -/
theorem kept (V : Valuation τ sig (Elt Ideal)) (r : Ref sig .tc) (h0 : r ∉ wr0) (h1 : r ∉ wr1) (h2 : r ∉ wr2)
    (h3 : r ∉ wr3) (h4 : r ∉ wr4) (h5 : r ∉ wr5) (h6 : r ∉ wr6) :
    after (ops (F := Ideal)) V (Proc.devRef .tc r) = V (Proc.devRef .tc r) := by
  rw [after_ops V]
  exact (keep6 _ r h6).trans ((keep5 _ r h5).trans ((keep4 _ r h4).trans ((keep3 _ r h3).trans
    ((keep2 _ r h2).trans ((keep1 _ r h1).trans (keep0 V r h0))))))

/-- The result buffer after all the operations: the network of the arguments. -/
theorem result (V : Valuation τ sig (Elt Ideal)) :
    after (ops (F := Ideal)) V (Proc.devRef .tc main_v221)
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops V, layerB, layerA (after ops0 V)]
  rw [carryA (after ops0 V) main_arg4 (by decide) (by decide) (by decide), carryA (after ops0 V) main_arg5 (by decide) (by decide) (by decide),
    carryA (after ops0 V) main_arg9 (by decide) (by decide) (by decide), carryA (after ops0 V) main_arg10 (by decide) (by decide) (by decide),
    carryA (after ops0 V) main_arg11 (by decide) (by decide) (by decide), carryA (after ops0 V) main_v1 (by decide) (by decide) (by decide),
    carryA (after ops0 V) main_v3 (by decide) (by decide) (by decide)]
  rw [r0_v1 V, r0_v3 V]
  rw [keep0 V main_arg0 (by decide), keep0 V main_arg2 (by decide), keep0 V main_arg3 (by decide), keep0 V main_arg6 (by decide), keep0 V main_arg7 (by decide), keep0 V main_arg8 (by decide), keep0 V main_arg4 (by decide), keep0 V main_arg5 (by decide), keep0 V main_arg9 (by decide), keep0 V main_arg10 (by decide), keep0 V main_arg11 (by decide)]
  rw [hLayer_eq, hLayer_eq]
  rfl

/-- The reference's run: it terminates, faulting nowhere, with the result array at the network of the arguments and
    every argument as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v221)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
      ⟨(h c main_v221).trans (result (launchContents m c)),
       (h c main_arg0).trans (kept (launchContents m c) main_arg0 (by decide) (by decide) (by decide) (by decide) (by decide) (by decide) (by decide)),
       (h c main_arg1).trans (kept (launchContents m c) main_arg1 (by decide) (by decide) (by decide) (by decide) (by decide) (by decide) (by decide)),
       (h c main_arg2).trans (kept (launchContents m c) main_arg2 (by decide) (by decide) (by decide) (by decide) (by decide) (by decide) (by decide)),
       (h c main_arg3).trans (kept (launchContents m c) main_arg3 (by decide) (by decide) (by decide) (by decide) (by decide) (by decide) (by decide)),
       (h c main_arg4).trans (kept (launchContents m c) main_arg4 (by decide) (by decide) (by decide) (by decide) (by decide) (by decide) (by decide)),
       (h c main_arg5).trans (kept (launchContents m c) main_arg5 (by decide) (by decide) (by decide) (by decide) (by decide) (by decide) (by decide)),
       (h c main_arg6).trans (kept (launchContents m c) main_arg6 (by decide) (by decide) (by decide) (by decide) (by decide) (by decide) (by decide)),
       (h c main_arg7).trans (kept (launchContents m c) main_arg7 (by decide) (by decide) (by decide) (by decide) (by decide) (by decide) (by decide)),
       (h c main_arg8).trans (kept (launchContents m c) main_arg8 (by decide) (by decide) (by decide) (by decide) (by decide) (by decide) (by decide)),
       (h c main_arg9).trans (kept (launchContents m c) main_arg9 (by decide) (by decide) (by decide) (by decide) (by decide) (by decide) (by decide)),
       (h c main_arg10).trans (kept (launchContents m c) main_arg10 (by decide) (by decide) (by decide) (by decide) (by decide) (by decide) (by decide)),
       (h c main_arg11).trans (kept (launchContents m c) main_arg11 (by decide) (by decide) (by decide) (by decide) (by decide) (by decide) (by decide))⟩)
    (run_all (F := Ideal) m ρ)

end Cert.Gcn.RefValue

end
-- ==== Proof.lean ====
/-
  The kernel program and its reference compute one function over the extended reals: a two-layer graph network,
  each layer a dense product, two aggregations along the edges (with and against their direction), and a gated fusion
  g · o₁ + (1 − g) · o₂ with g = logistic(o₁ · Waᵀ + o₂ · Wbᵀ + b), o = max(aggregate + β, 0).

  The kernel program runs the two dense products and the two fusions as tiled regions (25 blocks of 2000 rows each) and
  the per-edge part as host operations between them; the reference is host operations only.  The two sides meet at one
  function `Cert.Gcn.net` of the twelve arguments:
    - the kernel's result array is followed through the program's seven segments (a region leaves in its output the
      product, or the fusion, of its input arrays, because row p of either reads row p of the row-tiled inputs only);
    - the reference's result buffer is read off its operation list, one layer at a time;
    - the per-edge chain is the same chain of array operations on both sides and is never opened;
    - the dense parts differ in spelling only: a product on the matrix unit into a zero accumulator and the host's product
      are the same sum, a change of number format is the identity, and 1 / (1 + exp(−x)) is the logistic function.
  No step uses that the inputs are finite: both sides apply the same operations to the same values.
  The three frame claims are the generated frame certificates and the reference's run; nothing was rewritten by the
  idealization, so `preserves` is trivial.
-/
import proofs.«129891_j60722247631313_1_alg».proof.Defs
import proofs.«129891_j60722247631313_1_alg».proof.Proof.Gen.Kernel
import proofs.«129891_j60722247631313_1_alg».proof.Proof.Gen.Kernel.Frame
import proofs.«129891_j60722247631313_1_alg».proof.Proof.Gen.KernelIdeal
import proofs.«129891_j60722247631313_1_alg».proof.Proof.Gen.KernelIdeal.Frame
import proofs.«129891_j60722247631313_1_alg».proof.Proof.Gen.ReferenceIdeal
import proofs.«129891_j60722247631313_1_alg».proof.Proof.Gen.Pre_finite_inputs
import proofs.«129891_j60722247631313_1_alg».proof.Proof.KernelRun
import proofs.«129891_j60722247631313_1_alg».proof.Proof.KernelValue
import proofs.«129891_j60722247631313_1_alg».proof.Proof.RefValue
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.Gcn.RefValue.run m ρ)

/-- The idealization rewrote nothing. -/
theorem preserves : Cert.preserves_Kernel_KernelIdeal := trivial

/-- Both programs end with the network of their arguments in the result array, and the arguments agree. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Gcn.Kernel.L7_v160 m ρ c), (h c).2⟩)
      (Cert.KernelIdeal.Whole.run_result (F := Ideal) m ρ)
  · refine (θ_run Cert.ReferenceIdeal.defs _ _).mono (fun r h c => ⟨(h c).1.trans ?_, (h c).2⟩)
      (Cert.Gcn.RefValue.run m' ρ')
    obtain ⟨a0, a1, a2, a3, a4, a5, a6, a7, a8, a9, a10, a11⟩ := hagree c
    rw [a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
